-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x512 : Shape := ⟨2, ![128, 512]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x512 .f32) (main_arg3 : FVec F S128 .f32) (main_arg4 : FVec F S128x512 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x512 .f32 := Host.absf main_arg2
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x512 .f32 := Host.absf main_arg4
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x512 : Shape := ⟨2, ![128, 512]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x512 : Shape := ⟨2, ![100000, 512]⟩
abbrev S512x128 : Shape := ⟨2, ![512, 128]⟩
abbrev S1x128 : Shape := ⟨2, ![1, 128]⟩
abbrev S2000x512 : Shape := ⟨2, ![2000, 512]⟩
abbrev S2000x128 : Shape := ⟨2, ![2000, 128]⟩
abbrev S12800000 : Shape := ⟨1, ![12800000]⟩

abbrev nBuf : Space → Nat
  | .hbm => 151
  | .vmem => 12
  | .smem => 0
  | _ => 0

abbrev hbmTy0_0 (i : Nat) : BufTy := match i % 128 with
  | 0 => ⟨S100000x128, .f32⟩
  | 1 => ⟨S2x1600000, .i32⟩
  | 2 => ⟨S128x512, .f32⟩
  | 3 => ⟨S128, .f32⟩
  | 4 => ⟨S128x512, .f32⟩
  | 5 => ⟨S128, .f32⟩
  | 6 => ⟨S1x1600000, .i32⟩
  | 7 => ⟨S1600000, .i32⟩
  | 8 => ⟨S1x1600000, .i32⟩
  | 9 => ⟨S1600000, .i32⟩
  | 10 => ⟨S_, .f32⟩
  | 11 => ⟨S1600000, .f32⟩
  | 12 => ⟨S_, .f32⟩
  | 13 => ⟨S100000, .f32⟩
  | 14 => ⟨S1600000x1, .i32⟩
  | 15 => ⟨S100000, .f32⟩
  | 16 => ⟨S_, .f32⟩
  | 17 => ⟨S100000, .f32⟩
  | 18 => ⟨S100000, .i1⟩
  | 19 => ⟨S_, .f32⟩
  | 20 => ⟨S100000, .f32⟩
  | 21 => ⟨S100000, .f32⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000, .f32⟩
  | 45 => ⟨S1600000, .f32⟩
  | 46 => ⟨S1600000x1, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x128, .f32⟩
  | 56 => ⟨S1600000x128, .f32⟩
  | 57 => ⟨S1600000x128, .f32⟩
  | 58 => ⟨S_, .f32⟩
  | 59 => ⟨S100000x128, .f32⟩
  | 60 => ⟨S1600000x1, .i32⟩
  | 61 => ⟨S100000x128, .f32⟩
  | 62 => ⟨S1600000x1, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1600000x128, .f32⟩
  | 72 => ⟨S1600000x128, .f32⟩
  | 73 => ⟨S1600000x128, .f32⟩
  | 74 => ⟨S_, .f32⟩
  | 75 => ⟨S100000x128, .f32⟩
  | 76 => ⟨S1600000x1, .i32⟩
  | 77 => ⟨S100000x128, .f32⟩
  | 78 => ⟨S1600000x1, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000x128, .f32⟩
  | 88 => ⟨S1600000x128, .f32⟩
  | 89 => ⟨S1600000x128, .f32⟩
  | 90 => ⟨S_, .f32⟩
  | 91 => ⟨S100000x128, .f32⟩
  | 92 => ⟨S1600000x1, .i32⟩
  | 93 => ⟨S100000x128, .f32⟩
  | 94 => ⟨S100000x512, .f32⟩
  | 95 => ⟨S512x128, .f32⟩
  | 96 => ⟨S1x128, .f32⟩
  | 97 => ⟨S100000x128, .f32⟩
  | 98 => ⟨S1600000x1, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x128, .f32⟩
  | 108 => ⟨S1600000x128, .f32⟩
  | 109 => ⟨S1600000x128, .f32⟩
  | 110 => ⟨S_, .f32⟩
  | 111 => ⟨S100000x128, .f32⟩
  | 112 => ⟨S1600000x1, .i32⟩
  | 113 => ⟨S100000x128, .f32⟩
  | 114 => ⟨S1600000x1, .f32⟩
  | 115 => ⟨S_, .i32⟩
  | 116 => ⟨S1600000, .i32⟩
  | 117 => ⟨S1600000, .i1⟩
  | 118 => ⟨S_, .i32⟩
  | 119 => ⟨S1600000, .i32⟩
  | 120 => ⟨S1600000, .i32⟩
  | 121 => ⟨S1600000, .i32⟩
  | 122 => ⟨S1600000x1, .i32⟩
  | 123 => ⟨S1600000x128, .f32⟩
  | 124 => ⟨S1600000x128, .f32⟩
  | 125 => ⟨S1600000x128, .f32⟩
  | 126 => ⟨S_, .f32⟩
  | 127 => ⟨S100000x128, .f32⟩
  | _ => ⟨S100000x128, .f32⟩

abbrev hbmTy0_1 (i : Nat) : BufTy := match i % 128 with
  | 0 => ⟨S1600000x1, .i32⟩
  | 1 => ⟨S100000x128, .f32⟩
  | 2 => ⟨S1600000x1, .f32⟩
  | 3 => ⟨S_, .i32⟩
  | 4 => ⟨S1600000, .i32⟩
  | 5 => ⟨S1600000, .i1⟩
  | 6 => ⟨S_, .i32⟩
  | 7 => ⟨S1600000, .i32⟩
  | 8 => ⟨S1600000, .i32⟩
  | 9 => ⟨S1600000, .i32⟩
  | 10 => ⟨S1600000x1, .i32⟩
  | 11 => ⟨S1600000x128, .f32⟩
  | 12 => ⟨S1600000x128, .f32⟩
  | 13 => ⟨S1600000x128, .f32⟩
  | 14 => ⟨S_, .f32⟩
  | 15 => ⟨S100000x128, .f32⟩
  | 16 => ⟨S1600000x1, .i32⟩
  | 17 => ⟨S100000x128, .f32⟩
  | 18 => ⟨S100000x512, .f32⟩
  | 19 => ⟨S512x128, .f32⟩
  | 20 => ⟨S1x128, .f32⟩
  | 21 => ⟨S100000x128, .f32⟩
  | 22 => ⟨S12800000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x512, .f32⟩
  | .local _ .vmem, ⟨7, _⟩ => ⟨S2000x512, .f32⟩
  | .local _ .vmem, ⟨8, _⟩ => ⟨S512x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_c_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_10 : Ref sig .tc := ⟨.hbm, 63, rfl⟩
abbrev main_v43 : Ref sig .tc := ⟨.hbm, 64, rfl⟩
abbrev main_v44 : Ref sig .tc := ⟨.hbm, 65, rfl⟩
abbrev main_c_11 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_13 : Ref sig .tc := ⟨.hbm, 79, rfl⟩
abbrev main_v56 : Ref sig .tc := ⟨.hbm, 80, rfl⟩
abbrev main_v57 : Ref sig .tc := ⟨.hbm, 81, rfl⟩
abbrev main_c_14 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_15 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_c_16 : Ref sig .tc := ⟨.hbm, 99, rfl⟩
abbrev main_v73 : Ref sig .tc := ⟨.hbm, 100, rfl⟩
abbrev main_v74 : Ref sig .tc := ⟨.hbm, 101, rfl⟩
abbrev main_c_17 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_18 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_c_19 : Ref sig .tc := ⟨.hbm, 115, rfl⟩
abbrev main_v86 : Ref sig .tc := ⟨.hbm, 116, rfl⟩
abbrev main_v87 : Ref sig .tc := ⟨.hbm, 117, rfl⟩
abbrev main_c_20 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_21 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_c_22 : Ref sig .tc := ⟨.hbm, 131, rfl⟩
abbrev main_v99 : Ref sig .tc := ⟨.hbm, 132, rfl⟩
abbrev main_v100 : Ref sig .tc := ⟨.hbm, 133, rfl⟩
abbrev main_c_23 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_cst_24 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  concatenates_S100000x128_S100000x128_S100000x128_S100000x128_S100000x512_d1 : Shape.Concatenates [S100000x128, S100000x128, S100000x128, S100000x128] S100000x512 1
  transposes_S128x512_S512x128_1_0 : S128x512.Transposes [1, 0] S512x128
  shapeCasts_S128_S1x128 : S128.ShapeCasts S1x128
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  shapeCasts_S100000x128_S12800000 : S100000x128.ShapeCasts S12800000
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x512_S512x128_S2000x128_1_0_0_1_n_n_wf : DotDims.WF S2000x512 S512x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S100000x512.size a
  hwx1_0 : ∀ i : grid1.Coords, EltTy.bits .f32 = 32 ∨ (Rect.block (s := S100000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S512x128.size a
  hwx1_1 : ∀ i : grid1.Coords, EltTy.bits .f32 = 32 ∨ (Rect.block (s := S512x128) S512x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf

abbrev win0_0 : Pipeline.Window sig grid0 :=
  Pipeline.Window.ofSpec (Memref.whole main_v68) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v69) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v70) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v71) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v111) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v112) S512x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v113) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v114) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x512 : Shape := ⟨2, ![128, 512]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x512 : Shape := ⟨2, ![100000, 512]⟩
abbrev S512x128 : Shape := ⟨2, ![512, 128]⟩
abbrev S1x128 : Shape := ⟨2, ![1, 128]⟩
abbrev S12800000 : Shape := ⟨1, ![12800000]⟩

abbrev nBuf : Space → Nat
  | .hbm => 162
  | .vmem => 0
  | .smem => 0
  | _ => 0

abbrev hbmTy0_0 (i : Nat) : BufTy := match i % 128 with
  | 0 => ⟨S100000x128, .f32⟩
  | 1 => ⟨S2x1600000, .i32⟩
  | 2 => ⟨S128x512, .f32⟩
  | 3 => ⟨S128, .f32⟩
  | 4 => ⟨S128x512, .f32⟩
  | 5 => ⟨S128, .f32⟩
  | 6 => ⟨S1x1600000, .i32⟩
  | 7 => ⟨S1600000, .i32⟩
  | 8 => ⟨S1x1600000, .i32⟩
  | 9 => ⟨S1600000, .i32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .f32⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000, .f32⟩
  | 49 => ⟨S1600000, .f32⟩
  | 50 => ⟨S1600000x1, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000x128, .f32⟩
  | 60 => ⟨S1600000x128, .f32⟩
  | 61 => ⟨S1600000x128, .f32⟩
  | 62 => ⟨S_, .f32⟩
  | 63 => ⟨S100000x128, .f32⟩
  | 64 => ⟨S1600000x1, .i32⟩
  | 65 => ⟨S100000x128, .f32⟩
  | 66 => ⟨S1600000x1, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000x128, .f32⟩
  | 76 => ⟨S1600000x128, .f32⟩
  | 77 => ⟨S1600000x128, .f32⟩
  | 78 => ⟨S_, .f32⟩
  | 79 => ⟨S100000x128, .f32⟩
  | 80 => ⟨S1600000x1, .i32⟩
  | 81 => ⟨S100000x128, .f32⟩
  | 82 => ⟨S1600000x1, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000x128, .f32⟩
  | 92 => ⟨S1600000x128, .f32⟩
  | 93 => ⟨S1600000x128, .f32⟩
  | 94 => ⟨S_, .f32⟩
  | 95 => ⟨S100000x128, .f32⟩
  | 96 => ⟨S1600000x1, .i32⟩
  | 97 => ⟨S100000x128, .f32⟩
  | 98 => ⟨S100000x512, .f32⟩
  | 99 => ⟨S512x128, .f32⟩
  | 100 => ⟨S100000x128, .f32⟩
  | 101 => ⟨S1x128, .f32⟩
  | 102 => ⟨S100000x128, .f32⟩
  | 103 => ⟨S100000x128, .f32⟩
  | 104 => ⟨S_, .f32⟩
  | 105 => ⟨S100000x128, .f32⟩
  | 106 => ⟨S100000x128, .f32⟩
  | 107 => ⟨S1600000x1, .f32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1600000x128, .f32⟩
  | 117 => ⟨S1600000x128, .f32⟩
  | 118 => ⟨S1600000x128, .f32⟩
  | 119 => ⟨S_, .f32⟩
  | 120 => ⟨S100000x128, .f32⟩
  | 121 => ⟨S1600000x1, .i32⟩
  | 122 => ⟨S100000x128, .f32⟩
  | 123 => ⟨S1600000x1, .f32⟩
  | 124 => ⟨S_, .i32⟩
  | 125 => ⟨S1600000, .i32⟩
  | 126 => ⟨S1600000, .i1⟩
  | 127 => ⟨S_, .i32⟩
  | _ => ⟨S100000x128, .f32⟩

abbrev hbmTy0_1 (i : Nat) : BufTy := match i % 128 with
  | 0 => ⟨S1600000, .i32⟩
  | 1 => ⟨S1600000, .i32⟩
  | 2 => ⟨S1600000, .i32⟩
  | 3 => ⟨S1600000x1, .i32⟩
  | 4 => ⟨S1600000x128, .f32⟩
  | 5 => ⟨S1600000x128, .f32⟩
  | 6 => ⟨S1600000x128, .f32⟩
  | 7 => ⟨S_, .f32⟩
  | 8 => ⟨S100000x128, .f32⟩
  | 9 => ⟨S1600000x1, .i32⟩
  | 10 => ⟨S100000x128, .f32⟩
  | 11 => ⟨S1600000x1, .f32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S1600000x128, .f32⟩
  | 21 => ⟨S1600000x128, .f32⟩
  | 22 => ⟨S1600000x128, .f32⟩
  | 23 => ⟨S_, .f32⟩
  | 24 => ⟨S100000x128, .f32⟩
  | 25 => ⟨S1600000x1, .i32⟩
  | 26 => ⟨S100000x128, .f32⟩
  | 27 => ⟨S100000x512, .f32⟩
  | 28 => ⟨S512x128, .f32⟩
  | 29 => ⟨S100000x128, .f32⟩
  | 30 => ⟨S1x128, .f32⟩
  | 31 => ⟨S100000x128, .f32⟩
  | 32 => ⟨S100000x128, .f32⟩
  | 33 => ⟨S12800000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_10 : Ref sig .tc := ⟨.hbm, 67, rfl⟩
abbrev main_v47 : Ref sig .tc := ⟨.hbm, 68, rfl⟩
abbrev main_v48 : Ref sig .tc := ⟨.hbm, 69, rfl⟩
abbrev main_c_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_12 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_13 : Ref sig .tc := ⟨.hbm, 83, rfl⟩
abbrev main_v60 : Ref sig .tc := ⟨.hbm, 84, rfl⟩
abbrev main_v61 : Ref sig .tc := ⟨.hbm, 85, rfl⟩
abbrev main_c_14 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_15 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_call1_cst : Ref sig .tc := ⟨.hbm, 104, rfl⟩
abbrev main_call1_v0 : Ref sig .tc := ⟨.hbm, 105, rfl⟩
abbrev main_v78 : Ref sig .tc := ⟨.hbm, 106, rfl⟩
abbrev main_v79 : Ref sig .tc := ⟨.hbm, 107, rfl⟩
abbrev main_c_16 : Ref sig .tc := ⟨.hbm, 108, rfl⟩
abbrev main_v80 : Ref sig .tc := ⟨.hbm, 109, rfl⟩
abbrev main_v81 : Ref sig .tc := ⟨.hbm, 110, rfl⟩
abbrev main_c_17 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_18 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_c_19 : Ref sig .tc := ⟨.hbm, 124, rfl⟩
abbrev main_v93 : Ref sig .tc := ⟨.hbm, 125, rfl⟩
abbrev main_v94 : Ref sig .tc := ⟨.hbm, 126, rfl⟩
abbrev main_c_20 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_cst_21 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_c_22 : Ref sig .tc := ⟨.hbm, 140, rfl⟩
abbrev main_v106 : Ref sig .tc := ⟨.hbm, 141, rfl⟩
abbrev main_v107 : Ref sig .tc := ⟨.hbm, 142, rfl⟩
abbrev main_c_23 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_cst_24 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  concatenates_S100000x128_S100000x128_S100000x128_S100000x128_S100000x512_d1 : Shape.Concatenates [S100000x128, S100000x128, S100000x128, S100000x128] S100000x512 1
  transposes_S128x512_S512x128_1_0 : S128x512.Transposes [1, 0] S512x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S100000x128_S12800000 : S100000x128.ShapeCasts S12800000
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x512_S512x128_S100000x128_1_0_0_1_n_n_wf : DotDims.WF S100000x512 S512x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf

class Facts : Prop extends Facts₀ where

variable [Facts]
-- ==== Proof.BitsBody.lean ====
/-
  The two launches of the dense layer `rows ↦ rows · Wᵀ + b` (the first followed by a maximum with zero), one grid
  point per 2000 rows of the 100000 × 512 activations: what each point's body leaves in the output's staging
  buffer, as one function of the three blocks it loads, and that the body, run on those blocks, terminates without
  fault holding exactly that. Stated for any entry contents `V` of the buffers and any float model `F`.
-/
import proofs.«113024_j10694468567648_1_alg».proof.Proof.Gen.Kernel.Launch
import proofs.«113024_j10694468567648_1_alg».proof.Proof.Gen.Kernel.Skeleton
import proofs.«113024_j10694468567648_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the linear kernel of pipeline 0, at the entry contents `V` -/

/-- Window `w`'s block at grid point `t`: the rows of the window's array that the point works on, read off the
    contents the region is entered with. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the point's 2000 rows at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds the whole weight matrix at every point: it is fetched once and its block never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias row's staging buffer holds the bias at every point, likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The four whole-buffer rectangles the body loads and stores through. -/
abbrev rX0 : Rect S2000x512 := Rect.unit (s := S2000x512) ![0, 0] S2000x512.size inb_S2000x512_S2000x512_0_0
abbrev rW0 : Rect S512x128 := Rect.unit (s := S512x128) ![0, 0] S512x128.size inb_S512x128_S512x128_0_0
abbrev rB0 : Rect S1x128 := Rect.unit (s := S1x128) ![0, 0] S1x128.size inb_S1x128_S1x128_0_0
abbrev rO0 : Rect S2000x128 := Rect.unit (s := S2000x128) ![0, 0] S2000x128.size inb_S2000x128_S2000x128_0_0

/-- What the body leaves in the output's staging buffer: its one store, of the layer's value on the three loaded blocks. -/
def out0_3 (x0 : Vec F S2000x512 .f32) (x1 : Vec F S512x128 .f32) (x2 : Vec F S1x128 .f32) : Vec F S2000x128 .f32 :=
  View.canon [⟨rO0, k0_pay1 (View.ld x0 rX0) (View.ld x1 rW0) (View.ld x2 rB0)⟩]

/-- The one store is of the whole buffer, so it covers it. -/
theorem cover0_3 (p0 : Vec F S2000x128 .f32) (y : S2000x128.Idx) :
    ∃ pc ∈ ([⟨rO0, p0⟩] : List (View.Piece (Elt F) S2000x128 .f32)), y ∈ pc.1.set :=
  View.cover_of_tiled [⟨rO0, p0⟩] S2000x128.size (by rfl) y

set_option maxHeartbeats 1000000 in
/-- The body, run on whole staging buffers holding `x0`, `x1`, `x2` and an output buffer holding anything, returns with
    the inputs as they were and the output at `out0_3 x0 x1 x2`. -/
theorem sound_kernel0 (c : Dev nD) (E : Set ℕ) (i : grid0.Coords)
    (arg1 : Memref sig .tc .vmem S2000x512 .f32) (harg1 : arg1.IsWhole) (arg2 : Memref sig .tc .vmem S512x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x512 .f32) (x1 : Vec F S512x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the region finds them; after the body at point `t` each input's
    buffer still holds its block and the output's holds the layer's value on the three blocks; nothing else is touched,
    nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the three inputs' buffers hold their blocks, so the body's triple applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

/-! # Region 1: the linear kernel of pipeline 1, at the entry contents `V` -/

/-- Window `w`'s block at grid point `t`: the rows of the window's array that the point works on, read off the
    contents the region is entered with. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activations' staging buffer holds the point's 2000 rows at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weights' staging buffer holds the whole weight matrix at every point: it is fetched once and its block never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias row's staging buffer holds the bias at every point, likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The four whole-buffer rectangles the body loads and stores through. -/
abbrev rX1 : Rect S2000x512 := Rect.unit (s := S2000x512) ![0, 0] S2000x512.size inb_S2000x512_S2000x512_0_0
abbrev rW1 : Rect S512x128 := Rect.unit (s := S512x128) ![0, 0] S512x128.size inb_S512x128_S512x128_0_0
abbrev rB1 : Rect S1x128 := Rect.unit (s := S1x128) ![0, 0] S1x128.size inb_S1x128_S1x128_0_0
abbrev rO1 : Rect S2000x128 := Rect.unit (s := S2000x128) ![0, 0] S2000x128.size inb_S2000x128_S2000x128_0_0

/-- What the body leaves in the output's staging buffer: its one store, of the layer's value on the three loaded blocks. -/
def out1_3 (x0 : Vec F S2000x512 .f32) (x1 : Vec F S512x128 .f32) (x2 : Vec F S1x128 .f32) : Vec F S2000x128 .f32 :=
  View.canon [⟨rO1, k1_pay1 (View.ld x0 rX1) (View.ld x1 rW1) (View.ld x2 rB1)⟩]

/-- The one store is of the whole buffer, so it covers it. -/
theorem cover1_3 (p0 : Vec F S2000x128 .f32) (y : S2000x128.Idx) :
    ∃ pc ∈ ([⟨rO1, p0⟩] : List (View.Piece (Elt F) S2000x128 .f32)), y ∈ pc.1.set :=
  View.cover_of_tiled [⟨rO1, p0⟩] S2000x128.size (by rfl) y

set_option maxHeartbeats 1000000 in
/-- The body, run on whole staging buffers holding `x0`, `x1`, `x2` and an output buffer holding anything, returns with
    the inputs as they were and the output at `out1_3 x0 x1 x2`. -/
theorem sound_kernel1 (c : Dev nD) (E : Set ℕ) (i : grid1.Coords)
    (arg1 : Memref sig .tc .vmem S2000x512 .f32) (harg1 : arg1.IsWhole) (arg2 : Memref sig .tc .vmem S512x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x512 .f32) (x1 : Vec F S512x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data on core `c`: the arrays as the region finds them; after the body at point `t` each input's
    buffer still holds its block and the output's holds the layer's value on the three blocks; nothing else is touched,
    nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the three inputs' buffers hold their blocks, so the body's triple applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

end Cert.Kernel.Layer

end
-- ==== Proof.BitsRun.lean ====
/-
  The whole program as a run: the contents of every buffer at each boundary of @main — after the three stretches of host
  operations that build the first layer's input, after the first launch, after the stretch that builds the second layer's
  input, after the second launch, after the closing reshape — as a fold from the launch memory; and that every weakly
  fair execution terminates without fault with every unscoped buffer at the last of these. Stated for any float model.
-/
import proofs.«113024_j10694468567648_1_alg».proof.Proof.BitsBody

set_option maxRecDepth 16384

noncomputable section

namespace Cert.Kernel.Layer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch (the edge list's two rows, the degree count, its inverse square root). -/
abbrev Wa : Dev nD → Valuation τ sig (Elt F) := fun c => StableHlo.after hostOps0 (W0 m ρ c)
/-- After the select that zeroes the isolated nodes. -/
abbrev Wb : Dev nD → Valuation τ sig (Elt F) := fun c => StableHlo.after hostOps0_1 (Wa m ρ c)
/-- After the edge weights, the three propagation hops and the concatenation: the first launch's entry. -/
abbrev W1 : Dev nD → Valuation τ sig (Elt F) := fun c => StableHlo.after hostOps0_2 (Wb m ρ c)
abbrev V1 : (c : Dev nD) → (b : Ref sig .tc) → Buf (Elt F) ((c : Thread nD τ).loc b) := fun c b => W1 m ρ c b
/-- At the first launch's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second layer's three hops and concatenation: the second launch's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second launch's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the closing reshape: the contents the program ends with. -/
abbrev W5 : Dev nD → Valuation τ sig (Elt F) := fun c => StableHlo.after hostOps2 (W4 m ρ c)

/-! ## The proof data family and the thread state -/

abbrev adm : (p : Fin 2) → (pcfgs (F := F) p).Adm := fun p => (cfgs p).toPCfg_adm
/-- Each pipeline's proof data at its launch's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over all the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-! ## The two launches as segments -/

set_option backward.isDefEq.respectTransparency.types false in
/-- Launch 0 over the thread state: entered with every unscoped buffer at `W1`, left with them at `W2`. Its four
    arrays are split out of the unscoped buffers on entry and put back, at what the write-backs leave, on exit; the
    generator register goes into the kernel's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered with every unscoped buffer at `W3`, left with them at `W4`. Its four
    arrays are split out of the unscoped buffers on entry and put back, at what the write-backs leave, on exit; the
    generator register goes into the kernel's invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (Wa m ρ)),
    .host (hseg hostOps0_2 hostOps0_2_sub hostOps0_2_fresh (Wb m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- Every weakly fair execution of @main terminates, nothing faulting, and in every final state each unscoped buffer of
    each core holds the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.Kernel.Layer

end
-- ==== Proof.BitsKept.lean ====
/-
  The six argument arrays end as launched: no host operation of @main writes one, and neither launch has one among the
  four arrays it stages and writes back, so the fold of the boundaries' contents, read at an argument's buffer, walks back
  to the launch memory.
-/
import proofs.«113024_j10694468567648_1_alg».proof.Proof.BitsRun

set_option maxRecDepth 16384

noncomputable section

namespace Cert.Kernel.Layer

open Cert.Kernel Cert.Kernel.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- A stretch of host operations leaves a buffer none of them writes as it was. -/
local macro "not_written" : tactic => `(tactic| (
  refine StableHlo.after_of_forall_not_mem _ _ (List.forall_iff_forall_mem.mp ?_)
  simp only [hostOps0, hostOps0_1, hostOps0_2, hostOps1, hostOps2, StableHlo.TRef.unary, StableHlo.TRef.ternary, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)))

/-- Through the first three stretches. -/
theorem W1_kept (c : Dev nD) (b : Ref sig .tc)
    (hb : b = main_arg0 ∨ b = main_arg1 ∨ b = main_arg2 ∨ b = main_arg3 ∨ b = main_arg4 ∨ b = main_arg5) :
    W1 m ρ c (Proc.devRef .tc b) = W0 m ρ c (Proc.devRef .tc b) := by
  rcases hb with rfl | rfl | rfl | rfl | rfl | rfl <;>
  exact (show StableHlo.after hostOps0_2 (Wb m ρ c) _ = Wb m ρ c _ from by not_written).trans
    ((show StableHlo.after hostOps0_1 (Wa m ρ c) _ = Wa m ρ c _ from by not_written).trans
      (show StableHlo.after hostOps0 (W0 m ρ c) _ = W0 m ρ c _ from by not_written))

/-- Through the first launch and the stretch after it. -/
theorem W3_kept (c : Dev nD) (b : Ref sig .tc)
    (hb : b = main_arg0 ∨ b = main_arg1 ∨ b = main_arg2 ∨ b = main_arg3 ∨ b = main_arg4 ∨ b = main_arg5) :
    W3 m ρ c (Proc.devRef .tc b) = W1 m ρ c (Proc.devRef .tc b) := by
  rcases hb with rfl | rfl | rfl | rfl | rfl | rfl <;>
  exact (show StableHlo.after hostOps1 (W2 m ρ c) _ = W2 m ρ c _ from by not_written).trans (W2_of_ne m ρ c _ (by decide))

/-- Through the second launch and the closing reshape. -/
theorem W5_kept (c : Dev nD) (b : Ref sig .tc)
    (hb : b = main_arg0 ∨ b = main_arg1 ∨ b = main_arg2 ∨ b = main_arg3 ∨ b = main_arg4 ∨ b = main_arg5) :
    W5 m ρ c (Proc.devRef .tc b) = W3 m ρ c (Proc.devRef .tc b) := by
  rcases hb with rfl | rfl | rfl | rfl | rfl | rfl <;>
  exact (show StableHlo.after hostOps2 (W4 m ρ c) _ = W4 m ρ c _ from by not_written).trans (W4_of_ne m ρ c _ (by decide))

/-- An argument's buffer at the end holds what the launch memory held. -/
theorem arg_kept (c : Dev nD) (b : Ref sig .tc)
    (hb : b = main_arg0 ∨ b = main_arg1 ∨ b = main_arg2 ∨ b = main_arg3 ∨ b = main_arg4 ∨ b = main_arg5) :
    W5 m ρ c (Proc.devRef .tc b) = m ((c : Thread nD τ).loc b) :=
  (W5_kept m ρ c b hb).trans ((W3_kept m ρ c b hb).trans ((W1_kept m ρ c b hb).trans rfl))

/-- The frame: every weakly fair execution terminates without fault and the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (arg_kept m ρ c main_arg0 (by simp)),
     (h c _ (mem_uc main_arg1 (by decide))).trans (arg_kept m ρ c main_arg1 (by simp)),
     (h c _ (mem_uc main_arg2 (by decide))).trans (arg_kept m ρ c main_arg2 (by simp)),
     (h c _ (mem_uc main_arg3 (by decide))).trans (arg_kept m ρ c main_arg3 (by simp)),
     (h c _ (mem_uc main_arg4 (by decide))).trans (arg_kept m ρ c main_arg4 (by simp)),
     (h c _ (mem_uc main_arg5 (by decide))).trans (arg_kept m ρ c main_arg5 (by simp))⟩)
    (run_all m ρ)

end Cert.Kernel.Layer

end
-- ==== Proof.IdealBody.lean ====
/-
  The two launches of the dense layer `rows ↦ rows · Wᵀ + b` (the first followed by a maximum with zero), one grid
  point per 2000 rows of the 100000 × 512 activations: what each point's body leaves in the output's staging
  buffer, as one function of the three blocks it loads, and that the body, run on those blocks, terminates without
  fault holding exactly that. Stated for any entry contents `V` of the buffers and any float model `F`.
-/
import proofs.«113024_j10694468567648_1_alg».proof.Proof.Gen.KernelIdeal.Launch
import proofs.«113024_j10694468567648_1_alg».proof.Proof.Gen.KernelIdeal.Skeleton
import proofs.«113024_j10694468567648_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the linear kernel of pipeline 0, at the entry contents `V` -/

/-- Window `w`'s block at grid point `t`: the rows of the window's array that the point works on, read off the
    contents the region is entered with. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the point's 2000 rows at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds the whole weight matrix at every point: it is fetched once and its block never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias row's staging buffer holds the bias at every point, likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The four whole-buffer rectangles the body loads and stores through. -/
abbrev rX0 : Rect S2000x512 := Rect.unit (s := S2000x512) ![0, 0] S2000x512.size inb_S2000x512_S2000x512_0_0
abbrev rW0 : Rect S512x128 := Rect.unit (s := S512x128) ![0, 0] S512x128.size inb_S512x128_S512x128_0_0
abbrev rB0 : Rect S1x128 := Rect.unit (s := S1x128) ![0, 0] S1x128.size inb_S1x128_S1x128_0_0
abbrev rO0 : Rect S2000x128 := Rect.unit (s := S2000x128) ![0, 0] S2000x128.size inb_S2000x128_S2000x128_0_0

/-- What the body leaves in the output's staging buffer: its one store, of the layer's value on the three loaded blocks. -/
def out0_3 (x0 : Vec F S2000x512 .f32) (x1 : Vec F S512x128 .f32) (x2 : Vec F S1x128 .f32) : Vec F S2000x128 .f32 :=
  View.canon [⟨rO0, k0_pay1 (View.ld x0 rX0) (View.ld x1 rW0) (View.ld x2 rB0)⟩]

/-- The one store is of the whole buffer, so it covers it. -/
theorem cover0_3 (p0 : Vec F S2000x128 .f32) (y : S2000x128.Idx) :
    ∃ pc ∈ ([⟨rO0, p0⟩] : List (View.Piece (Elt F) S2000x128 .f32)), y ∈ pc.1.set :=
  View.cover_of_tiled [⟨rO0, p0⟩] S2000x128.size (by rfl) y

set_option maxHeartbeats 1000000 in
/-- The body, run on whole staging buffers holding `x0`, `x1`, `x2` and an output buffer holding anything, returns with
    the inputs as they were and the output at `out0_3 x0 x1 x2`. -/
theorem sound_kernel0 (c : Dev nD) (E : Set ℕ) (i : grid0.Coords)
    (arg1 : Memref sig .tc .vmem S2000x512 .f32) (harg1 : arg1.IsWhole) (arg2 : Memref sig .tc .vmem S512x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x512 .f32) (x1 : Vec F S512x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the region finds them; after the body at point `t` each input's
    buffer still holds its block and the output's holds the layer's value on the three blocks; nothing else is touched,
    nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the three inputs' buffers hold their blocks, so the body's triple applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

/-! # Region 1: the linear kernel of pipeline 1, at the entry contents `V` -/

/-- Window `w`'s block at grid point `t`: the rows of the window's array that the point works on, read off the
    contents the region is entered with. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activations' staging buffer holds the point's 2000 rows at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weights' staging buffer holds the whole weight matrix at every point: it is fetched once and its block never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias row's staging buffer holds the bias at every point, likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The four whole-buffer rectangles the body loads and stores through. -/
abbrev rX1 : Rect S2000x512 := Rect.unit (s := S2000x512) ![0, 0] S2000x512.size inb_S2000x512_S2000x512_0_0
abbrev rW1 : Rect S512x128 := Rect.unit (s := S512x128) ![0, 0] S512x128.size inb_S512x128_S512x128_0_0
abbrev rB1 : Rect S1x128 := Rect.unit (s := S1x128) ![0, 0] S1x128.size inb_S1x128_S1x128_0_0
abbrev rO1 : Rect S2000x128 := Rect.unit (s := S2000x128) ![0, 0] S2000x128.size inb_S2000x128_S2000x128_0_0

/-- What the body leaves in the output's staging buffer: its one store, of the layer's value on the three loaded blocks. -/
def out1_3 (x0 : Vec F S2000x512 .f32) (x1 : Vec F S512x128 .f32) (x2 : Vec F S1x128 .f32) : Vec F S2000x128 .f32 :=
  View.canon [⟨rO1, k1_pay1 (View.ld x0 rX1) (View.ld x1 rW1) (View.ld x2 rB1)⟩]

/-- The one store is of the whole buffer, so it covers it. -/
theorem cover1_3 (p0 : Vec F S2000x128 .f32) (y : S2000x128.Idx) :
    ∃ pc ∈ ([⟨rO1, p0⟩] : List (View.Piece (Elt F) S2000x128 .f32)), y ∈ pc.1.set :=
  View.cover_of_tiled [⟨rO1, p0⟩] S2000x128.size (by rfl) y

set_option maxHeartbeats 1000000 in
/-- The body, run on whole staging buffers holding `x0`, `x1`, `x2` and an output buffer holding anything, returns with
    the inputs as they were and the output at `out1_3 x0 x1 x2`. -/
theorem sound_kernel1 (c : Dev nD) (E : Set ℕ) (i : grid1.Coords)
    (arg1 : Memref sig .tc .vmem S2000x512 .f32) (harg1 : arg1.IsWhole) (arg2 : Memref sig .tc .vmem S512x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x512 .f32) (x1 : Vec F S512x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data on core `c`: the arrays as the region finds them; after the body at point `t` each input's
    buffer still holds its block and the output's holds the layer's value on the three blocks; nothing else is touched,
    nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the three inputs' buffers hold their blocks, so the body's triple applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Layer

end
-- ==== Proof.IdealRun.lean ====
/-
  The whole program as a run: the contents of every buffer at each boundary of @main — after the three stretches of host
  operations that build the first layer's input, after the first launch, after the stretch that builds the second layer's
  input, after the second launch, after the closing reshape — as a fold from the launch memory; and that every weakly
  fair execution terminates without fault with every unscoped buffer at the last of these. Stated for any float model.
-/
import proofs.«113024_j10694468567648_1_alg».proof.Proof.IdealBody

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch (the edge list's two rows, the degree count, its inverse square root). -/
abbrev Wa : Dev nD → Valuation τ sig (Elt F) := fun c => StableHlo.after hostOps0 (W0 m ρ c)
/-- After the select that zeroes the isolated nodes. -/
abbrev Wb : Dev nD → Valuation τ sig (Elt F) := fun c => StableHlo.after hostOps0_1 (Wa m ρ c)
/-- After the edge weights, the three propagation hops and the concatenation: the first launch's entry. -/
abbrev W1 : Dev nD → Valuation τ sig (Elt F) := fun c => StableHlo.after hostOps0_2 (Wb m ρ c)
abbrev V1 : (c : Dev nD) → (b : Ref sig .tc) → Buf (Elt F) ((c : Thread nD τ).loc b) := fun c b => W1 m ρ c b
/-- At the first launch's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second layer's three hops and concatenation: the second launch's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second launch's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the closing reshape: the contents the program ends with. -/
abbrev W5 : Dev nD → Valuation τ sig (Elt F) := fun c => StableHlo.after hostOps2 (W4 m ρ c)

/-! ## The proof data family and the thread state -/

abbrev adm : (p : Fin 2) → (pcfgs (F := F) p).Adm := fun p => (cfgs p).toPCfg_adm
/-- Each pipeline's proof data at its launch's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over all the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-! ## The two launches as segments -/

set_option backward.isDefEq.respectTransparency.types false in
/-- Launch 0 over the thread state: entered with every unscoped buffer at `W1`, left with them at `W2`. Its four
    arrays are split out of the unscoped buffers on entry and put back, at what the write-backs leave, on exit; the
    generator register goes into the kernel's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered with every unscoped buffer at `W3`, left with them at `W4`. Its four
    arrays are split out of the unscoped buffers on entry and put back, at what the write-backs leave, on exit; the
    generator register goes into the kernel's invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (Wa m ρ)),
    .host (hseg hostOps0_2 hostOps0_2_sub hostOps0_2_fresh (Wb m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- Every weakly fair execution of @main terminates, nothing faulting, and in every final state each unscoped buffer of
    each core holds the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.KernelIdeal.Layer

end
-- ==== Proof.IdealKept.lean ====
/-
  The six argument arrays end as launched: no host operation of @main writes one, and neither launch has one among the
  four arrays it stages and writes back, so the fold of the boundaries' contents, read at an argument's buffer, walks back
  to the launch memory.
-/
import proofs.«113024_j10694468567648_1_alg».proof.Proof.IdealRun

set_option maxRecDepth 16384

noncomputable section

namespace Cert.KernelIdeal.Layer

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- A stretch of host operations leaves a buffer none of them writes as it was. -/
local macro "not_written" : tactic => `(tactic| (
  refine StableHlo.after_of_forall_not_mem _ _ (List.forall_iff_forall_mem.mp ?_)
  simp only [hostOps0, hostOps0_1, hostOps0_2, hostOps1, hostOps2, StableHlo.TRef.unary, StableHlo.TRef.ternary, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)))

/-- Through the first three stretches. -/
theorem W1_kept (c : Dev nD) (b : Ref sig .tc)
    (hb : b = main_arg0 ∨ b = main_arg1 ∨ b = main_arg2 ∨ b = main_arg3 ∨ b = main_arg4 ∨ b = main_arg5) :
    W1 m ρ c (Proc.devRef .tc b) = W0 m ρ c (Proc.devRef .tc b) := by
  rcases hb with rfl | rfl | rfl | rfl | rfl | rfl <;>
  exact (show StableHlo.after hostOps0_2 (Wb m ρ c) _ = Wb m ρ c _ from by not_written).trans
    ((show StableHlo.after hostOps0_1 (Wa m ρ c) _ = Wa m ρ c _ from by not_written).trans
      (show StableHlo.after hostOps0 (W0 m ρ c) _ = W0 m ρ c _ from by not_written))

/-- Through the first launch and the stretch after it. -/
theorem W3_kept (c : Dev nD) (b : Ref sig .tc)
    (hb : b = main_arg0 ∨ b = main_arg1 ∨ b = main_arg2 ∨ b = main_arg3 ∨ b = main_arg4 ∨ b = main_arg5) :
    W3 m ρ c (Proc.devRef .tc b) = W1 m ρ c (Proc.devRef .tc b) := by
  rcases hb with rfl | rfl | rfl | rfl | rfl | rfl <;>
  exact (show StableHlo.after hostOps1 (W2 m ρ c) _ = W2 m ρ c _ from by not_written).trans (W2_of_ne m ρ c _ (by decide))

/-- Through the second launch and the closing reshape. -/
theorem W5_kept (c : Dev nD) (b : Ref sig .tc)
    (hb : b = main_arg0 ∨ b = main_arg1 ∨ b = main_arg2 ∨ b = main_arg3 ∨ b = main_arg4 ∨ b = main_arg5) :
    W5 m ρ c (Proc.devRef .tc b) = W3 m ρ c (Proc.devRef .tc b) := by
  rcases hb with rfl | rfl | rfl | rfl | rfl | rfl <;>
  exact (show StableHlo.after hostOps2 (W4 m ρ c) _ = W4 m ρ c _ from by not_written).trans (W4_of_ne m ρ c _ (by decide))

/-- An argument's buffer at the end holds what the launch memory held. -/
theorem arg_kept (c : Dev nD) (b : Ref sig .tc)
    (hb : b = main_arg0 ∨ b = main_arg1 ∨ b = main_arg2 ∨ b = main_arg3 ∨ b = main_arg4 ∨ b = main_arg5) :
    W5 m ρ c (Proc.devRef .tc b) = m ((c : Thread nD τ).loc b) :=
  (W5_kept m ρ c b hb).trans ((W3_kept m ρ c b hb).trans ((W1_kept m ρ c b hb).trans rfl))

/-- The frame: every weakly fair execution terminates without fault and the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (arg_kept m ρ c main_arg0 (by simp)),
     (h c _ (mem_uc main_arg1 (by decide))).trans (arg_kept m ρ c main_arg1 (by simp)),
     (h c _ (mem_uc main_arg2 (by decide))).trans (arg_kept m ρ c main_arg2 (by simp)),
     (h c _ (mem_uc main_arg3 (by decide))).trans (arg_kept m ρ c main_arg3 (by simp)),
     (h c _ (mem_uc main_arg4 (by decide))).trans (arg_kept m ρ c main_arg4 (by simp)),
     (h c _ (mem_uc main_arg5 (by decide))).trans (arg_kept m ρ c main_arg5 (by simp))⟩)
    (run_all m ρ)

end Cert.KernelIdeal.Layer

end
-- ==== Proof.LayerValue.lean ====
/-
  The dense layer's arithmetic on one block, index by index, over the extended reals: entry (p, q) of what a grid point
  stores is the sum over k of block row p of the activations times column q of the transposed weights, plus the bias
  entry q (and, in the first layer, the maximum of that with zero). The change of float format on the way into the
  product is the identity here, and the product into a zero accumulator is the plain sum.
-/
import proofs.«113024_j10694468567648_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.LayerValue

open Cert.KernelIdeal Cert.KernelIdeal.Gen Idealize.ShloMosaic Idealize.ShloMosaic.ValueIdx

/-- The one contracted axis of the block product has 512 entries; its index along the left operand's second axis … -/
theorem lhs_row (j : S2000x128.Idx) (q : dot_S2000x512_S512x128_S2000x128_1_0_0_1_n_n.contr.Idx) :
    (dot_S2000x512_S512x128_S2000x128_1_0_0_1_n_n.lhsIdx j q 0).val = (j 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl
theorem lhs_col (j : S2000x128.Idx) (q : dot_S2000x512_S512x128_S2000x128_1_0_0_1_n_n.contr.Idx) :
    (dot_S2000x512_S512x128_S2000x128_1_0_0_1_n_n.lhsIdx j q 1).val = (q ⟨0, by decide⟩).val :=
  dot_S2000x512_S512x128_S2000x128_1_0_0_1_n_n.lhsIdx_val_of_single rfl j q
/-- … and along the right operand's first. -/
theorem rhs_row (j : S2000x128.Idx) (q : dot_S2000x512_S512x128_S2000x128_1_0_0_1_n_n.contr.Idx) :
    (dot_S2000x512_S512x128_S2000x128_1_0_0_1_n_n.rhsIdx j q 0).val = (q ⟨0, by decide⟩).val :=
  dot_S2000x512_S512x128_S2000x128_1_0_0_1_n_n.rhsIdx_val_of_single rfl j q
theorem rhs_col (j : S2000x128.Idx) (q : dot_S2000x512_S512x128_S2000x128_1_0_0_1_n_n.contr.Idx) :
    (dot_S2000x512_S512x128_S2000x128_1_0_0_1_n_n.rhsIdx j q 1).val = (j 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl

/-- The block product into the zero accumulator, at entry (p, q): the sum over the 512 columns. -/
theorem product_apply (a : FVec Ideal S2000x512 .bf16) (b : FVec Ideal S512x128 .bf16) (p : Fin 2000) (q : Fin 128) :
    matmul (F := Ideal) dot_S2000x512_S512x128_S2000x128_1_0_0_1_n_n none a b (constant S2000x128 .f32 0x00000000#32) (ix2 p q)
      = ∑ k : Fin 512, a (ix2 p k) * b (ix2 k q) := by
  refine (Ideal.matmul_constant_zero_apply dot_S2000x512_S512x128_S2000x128_1_0_0_1_n_n none a b (ix2 p q)).trans ?_
  rw [← Equiv.sum_comp (contrEquiv1 dot_S2000x512_S512x128_S2000x128_1_0_0_1_n_n 512 rfl rfl).symm]
  refine Finset.sum_congr rfl fun k _ => ?_
  have hk := contrEquiv1_symm_val dot_S2000x512_S512x128_S2000x128_1_0_0_1_n_n 512 rfl rfl k
  have el : dot_S2000x512_S512x128_S2000x128_1_0_0_1_n_n.lhsIdx (ix2 p q) ((contrEquiv1 dot_S2000x512_S512x128_S2000x128_1_0_0_1_n_n 512 rfl rfl).symm k) = ix2 p k := funext fun d => Fin.ext (by
    match d with
    | ⟨0, _⟩ => exact lhs_row _ _
    | ⟨1, _⟩ => exact (lhs_col _ _).trans hk)
  have er : dot_S2000x512_S512x128_S2000x128_1_0_0_1_n_n.rhsIdx (ix2 p q) ((contrEquiv1 dot_S2000x512_S512x128_S2000x128_1_0_0_1_n_n 512 rfl rfl).symm k) = ix2 k q := funext fun d => Fin.ext (by
    match d with
    | ⟨0, _⟩ => exact (rhs_row _ _).trans hk
    | ⟨1, _⟩ => exact rhs_col _ _)
  rw [el, er]

/-- The bias row spread over the block's 2000 rows, at entry (p, q): the bias entry q. -/
theorem bias_apply (x7 : FVec Ideal S1x128 .f32) (p : Fin 2000) (q : Fin 128) :
    broadcastTo S2000x128 (shapeCast S1x128 x7 shapeCasts_S1x128_S1x128) broadcasts_S1x128_S2000x128 (ix2 p q) = x7 (ix2 0 q) := by
  refine (broadcastTo_apply _ broadcasts_S1x128_S2000x128 (ix2 p q) (ix2 0 q) fun d => ?_).trans (congrFun (shapeCast_self x7 shapeCasts_S1x128_S1x128) _)
  match d with
  | ⟨0, _⟩ => show (0 : Nat) = if (1 : Nat) = 1 then 0 else p.val; rw [if_pos rfl]
  | ⟨1, _⟩ => show q.val = if (128 : Nat) = 1 then 0 else q.val; rw [if_neg (by decide)]

/-- The second layer's stored value at entry (p, q). -/
theorem second_apply (x0 : FVec Ideal S2000x512 .f32) (x3 : FVec Ideal S512x128 .f32) (x7 : FVec Ideal S1x128 .f32) (p : Fin 2000) (q : Fin 128) :
    k1_pay1 (F := Ideal) x0 x3 x7 (ix2 p q) = (∑ k : Fin 512, x0 (ix2 p k) * x3 (ix2 k q)) + x7 (ix2 0 q) := by
  unfold k1_pay1
  show _ + _ = _
  refine congrArg₂ (· + ·) ((product_apply _ _ p q).trans ?_) (bias_apply x7 p q)
  refine Finset.sum_congr rfl fun k _ => ?_
  exact congrArg₂ (· * ·) (congrFun (shapeCast_self x0 shapeCasts_S2000x512_S2000x512) _) (congrFun (shapeCast_self x3 shapeCasts_S512x128_S512x128) _)

/-- The first layer's stored value at entry (p, q): the same, cut off below at zero. -/
theorem first_apply (x0 : FVec Ideal S2000x512 .f32) (x3 : FVec Ideal S512x128 .f32) (x7 : FVec Ideal S1x128 .f32) (p : Fin 2000) (q : Fin 128) :
    k0_pay1 (F := Ideal) x0 x3 x7 (ix2 p q) = max ((∑ k : Fin 512, x0 (ix2 p k) * x3 (ix2 k q)) + x7 (ix2 0 q)) (Ideal.ofBits .f32 0x00000000#32) := by
  unfold k0_pay1
  show max (_ + _) _ = _
  refine congrArg₂ max (congrArg₂ (· + ·) ((product_apply _ _ p q).trans ?_) (bias_apply x7 p q)) rfl
  refine Finset.sum_congr rfl fun k _ => ?_
  exact congrArg₂ (· * ·) (congrFun (shapeCast_self x0 shapeCasts_S2000x512_S2000x512) _) (congrFun (shapeCast_self x3 shapeCasts_S512x128_S512x128) _)

end Cert.KernelIdeal.LayerValue

end
-- ==== Proof.Dense.lean ====
/-
  The dense layer on whole arrays over the extended reals, entry by entry: entry (n, c) of the result is the sum over k
  of activations (n, k) times transposed weights (k, c), plus bias entry c; and the same cut off below at zero.
  Both programs' layers are shown to be this function of their operands.
-/
import Idealize.ShloMosaic.PureOps.Ideal
import Idealize.ShloMosaic.Lib.ValueIdx

noncomputable section

namespace Cert.Dense

open Idealize.ShloMosaic Idealize.ShloMosaic.ValueIdx

abbrev SX : Shape := ⟨2, ![100000, 512]⟩
abbrev SW : Shape := ⟨2, ![512, 128]⟩
abbrev SB : Shape := ⟨2, ![1, 128]⟩
abbrev SO : Shape := ⟨2, ![100000, 128]⟩

/-- The dense layer on whole arrays, entry by entry. -/
def dense (X : SX.Idx → EReal) (Wt : SW.Idx → EReal) (B : SB.Idx → EReal) : SO.Idx → EReal := fun i =>
  (∑ k : Fin 512, X (ix2 (⟨(i 0).val, (i 0).isLt⟩ : Fin 100000) k) * Wt (ix2 k (⟨(i 1).val, (i 1).isLt⟩ : Fin 128)))
    + B (ix2 (0 : Fin 1) (⟨(i 1).val, (i 1).isLt⟩ : Fin 128))

/-- The same, cut off below at zero. -/
def denseRelu (X : SX.Idx → EReal) (Wt : SW.Idx → EReal) (B : SB.Idx → EReal) : SO.Idx → EReal := fun i =>
  max (dense X Wt B i) (Ideal.ofBits .f32 0x00000000#32)

/-- A concatenation of four operands depends only on the operands: equal operands give equal results (the shapes, and
    with them the side condition on the shapes, are unchanged). -/
theorem concat4_eq {α : Type} (t : Shape) (a : Fin t.rank) (S0 S1 S2 S3 : Shape)
    (u0 u0' : S0.Idx → α) (u1 u1' : S1.Idx → α) (u2 u2' : S2.Idx → α) (u3 u3' : S3.Idx → α)
    (h : Shape.Concatenates [S0, S1, S2, S3] t a) (e0 : u0 = u0') (e1 : u1 = u1') (e2 : u2 = u2') (e3 : u3 = u3') :
    concatenate t a [⟨S0, u0⟩, ⟨S1, u1⟩, ⟨S2, u2⟩, ⟨S3, u3⟩] h = concatenate t a [⟨S0, u0'⟩, ⟨S1, u1'⟩, ⟨S2, u2'⟩, ⟨S3, u3'⟩] h := by
  subst e0 e1 e2 e3; rfl

end Cert.Dense

end
-- ==== Proof.IdealValue.lean ====
/-
  What each launch leaves in its output array, as one function of the three arrays it reads: entry (n, c) is the sum over
  k of activations (n, k) times transposed weights (k, c), plus the bias entry c — cut off below at zero in the first
  launch. Every grid point writes back its 2000 rows of that function, and the 50 points' blocks cover the array.
-/
import proofs.«113024_j10694468567648_1_alg».proof.Proof.IdealBody
import proofs.«113024_j10694468567648_1_alg».proof.Proof.LayerValue
import proofs.«113024_j10694468567648_1_alg».proof.Proof.Dense
import Idealize.ShloMosaic.Lib.Pipeline.Value

set_option maxRecDepth 16384

noncomputable section

namespace Cert.KernelIdeal.Layer

open Cert.KernelIdeal Cert.KernelIdeal.Gen
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

open Cert.Dense (dense denseRelu)

variable (V : (c : Dev nD) → (b : Ref sig .tc) → Buf (Elt Ideal) ((c : Thread nD τ).loc b))

/-- Launch 0's window indices over the grid: the activations' and the output's block is the point's number along the
    rows, the weights' and the bias's block never moves. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` of launch 0 writes back is block `t` of the layer's value on the whole arrays: rows
    2000·t … 2000·t + 1999 of the activations against the whole weight matrix and bias. -/
theorem flushed0_eq (c : Dev nD) (t : Fin cfg0.N) :
    (dat0 V c).flushed 3 t = ((cfg0.win 3).blk t).view.read (Elt Ideal) (denseRelu (V c main_v68) (V c main_v69) (V c main_v70)) := by
  show (cfg0.win 3).cut (grid0.coords t) ((dat0 V c).after 3 t) = _
  rw [after0_3]
  unfold out0_3
  rw [View.canon_unit_zero hz]
  simp only [View.ld_unit_zero (S := S2000x512) hz, View.ld_unit_zero (S := S512x128) hz, View.ld_unit_zero (S := S1x128) hz]
  obtain ⟨e0, e1, e2, e3, e4, e5, e6, e7⟩ := idx0 t
  funext j
  obtain ⟨p, q, rfl⟩ : ∃ (p : Fin 2000) (q : Fin 128), j = ix2 p q := ⟨j 0, j 1, eq_ix2 j⟩
  refine (LayerValue.first_apply _ _ _ p q).trans ?_
  unfold denseRelu dense
  rw [View.read_apply]
  show max (_ + _) _ = max (_ + _) _
  refine congrArg₂ max (congrArg₂ (· + ·) (Finset.sum_congr rfl fun k _ => congrArg₂ (· * ·) ?_ ?_) ?_) rfl
  · show V c main_v68 (((cfg0.win 0).blk t).view.emb (ix2 p k)) = V c main_v68 _
    refine congrArg _ (funext fun a => Fin.ext ?_)
    match a with
    | ⟨0, _⟩ => show win0_0.index t (0 : Fin 2) * 2000 + 1 * p.val = win0_3.index t (0 : Fin 2) * 2000 + 1 * p.val; rw [e0, e6]
    | ⟨1, _⟩ => show win0_0.index t (1 : Fin 2) * 512 + 1 * k.val = k.val; rw [e1]; omega
  · show V c main_v69 (((cfg0.win 1).blk t).view.emb (ix2 k q)) = V c main_v69 _
    refine congrArg _ (funext fun a => Fin.ext ?_)
    match a with
    | ⟨0, _⟩ => show win0_1.index t (0 : Fin 2) * 512 + 1 * k.val = k.val; rw [e2]; omega
    | ⟨1, _⟩ => show win0_1.index t (1 : Fin 2) * 128 + 1 * q.val = win0_3.index t (1 : Fin 2) * 128 + 1 * q.val; rw [e3, e7]
  · show V c main_v70 (((cfg0.win 2).blk t).view.emb (ix2 (0 : Fin 1) q)) = V c main_v70 _
    refine congrArg _ (funext fun a => Fin.ext ?_)
    match a with
    | ⟨0, _⟩ => show win0_2.index t (0 : Fin 2) * 1 + 1 * 0 = 0; rw [e4]
    | ⟨1, _⟩ => show win0_2.index t (1 : Fin 2) * 128 + 1 * q.val = win0_3.index t (1 : Fin 2) * 128 + 1 * q.val; rw [e5, e7]

/-- An index of the output array is in point `t`'s block iff its row is among the point's 2000. -/
theorem mem_blk0 (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v71).slice (win0_3.rect t)).set ↔ _
  rw [View.set_slice_whole, Rect.mem_set_unit]
  exact Iff.rfl

/-- The 50 blocks of 2000 rows cover the 100000 rows: row r is in block r / 2000. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 50 := N_0
  refine ⟨⟨(i 0).val / 2000, by rw [hN]; omega⟩, flush0_3 _, ?_⟩
  rw [mem_blk0]
  obtain ⟨e0, e1, e2, e3, e4, e5, e6, e7⟩ := idx0 ⟨(i 0).val / 2000, by rw [hN]; omega⟩
  intro a
  match a with
  | ⟨0, _⟩ => show win0_3.index _ (0 : Fin 2) * 2000 ≤ (i 0).val ∧ (i 0).val < win0_3.index _ (0 : Fin 2) * 2000 + 2000; rw [e6]; show (i 0).val / 2000 * 2000 ≤ (i 0).val ∧ (i 0).val < (i 0).val / 2000 * 2000 + 2000; omega
  | ⟨1, _⟩ => show win0_3.index _ (1 : Fin 2) * 128 ≤ (i 1).val ∧ (i 1).val < win0_3.index _ (1 : Fin 2) * 128 + 128; rw [e7]; omega

/-- So launch 0's output array ends holding the layer's value on the arrays it was entered with. -/
theorem final0 (c : Dev nD) : (dat0 V c).arrAt 3 cfg0.N = denseRelu (V c main_v68) (V c main_v69) (V c main_v70) :=
  (dat0 V c).arrAt_eq_of_cover 3 _ (fun t _ => flushed0_eq V c t) (cover0)

/-- Launch 1's window indices over the grid: the activations' and the output's block is the point's number along the
    rows, the weights' and the bias's block never moves. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` of launch 1 writes back is block `t` of the layer's value on the whole arrays: rows
    2000·t … 2000·t + 1999 of the activations against the whole weight matrix and bias. -/
theorem flushed1_eq (c : Dev nD) (t : Fin cfg1.N) :
    (dat1 V c).flushed 3 t = ((cfg1.win 3).blk t).view.read (Elt Ideal) (dense (V c main_v111) (V c main_v112) (V c main_v113)) := by
  show (cfg1.win 3).cut (grid1.coords t) ((dat1 V c).after 3 t) = _
  rw [after1_3]
  unfold out1_3
  rw [View.canon_unit_zero hz]
  simp only [View.ld_unit_zero (S := S2000x512) hz, View.ld_unit_zero (S := S512x128) hz, View.ld_unit_zero (S := S1x128) hz]
  obtain ⟨e0, e1, e2, e3, e4, e5, e6, e7⟩ := idx1 t
  funext j
  obtain ⟨p, q, rfl⟩ : ∃ (p : Fin 2000) (q : Fin 128), j = ix2 p q := ⟨j 0, j 1, eq_ix2 j⟩
  refine (LayerValue.second_apply _ _ _ p q).trans ?_
  unfold dense
  rw [View.read_apply]
  show _ + _ = _ + _
  refine congrArg₂ (· + ·) (Finset.sum_congr rfl fun k _ => congrArg₂ (· * ·) ?_ ?_) ?_
  · show V c main_v111 (((cfg1.win 0).blk t).view.emb (ix2 p k)) = V c main_v111 _
    refine congrArg _ (funext fun a => Fin.ext ?_)
    match a with
    | ⟨0, _⟩ => show win1_0.index t (0 : Fin 2) * 2000 + 1 * p.val = win1_3.index t (0 : Fin 2) * 2000 + 1 * p.val; rw [e0, e6]
    | ⟨1, _⟩ => show win1_0.index t (1 : Fin 2) * 512 + 1 * k.val = k.val; rw [e1]; omega
  · show V c main_v112 (((cfg1.win 1).blk t).view.emb (ix2 k q)) = V c main_v112 _
    refine congrArg _ (funext fun a => Fin.ext ?_)
    match a with
    | ⟨0, _⟩ => show win1_1.index t (0 : Fin 2) * 512 + 1 * k.val = k.val; rw [e2]; omega
    | ⟨1, _⟩ => show win1_1.index t (1 : Fin 2) * 128 + 1 * q.val = win1_3.index t (1 : Fin 2) * 128 + 1 * q.val; rw [e3, e7]
  · show V c main_v113 (((cfg1.win 2).blk t).view.emb (ix2 (0 : Fin 1) q)) = V c main_v113 _
    refine congrArg _ (funext fun a => Fin.ext ?_)
    match a with
    | ⟨0, _⟩ => show win1_2.index t (0 : Fin 2) * 1 + 1 * 0 = 0; rw [e4]
    | ⟨1, _⟩ => show win1_2.index t (1 : Fin 2) * 128 + 1 * q.val = win1_3.index t (1 : Fin 2) * 128 + 1 * q.val; rw [e5, e7]

/-- An index of the output array is in point `t`'s block iff its row is among the point's 2000. -/
theorem mem_blk1 (t : Fin cfg1.N) (i : S100000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v114).slice (win1_3.rect t)).set ↔ _
  rw [View.set_slice_whole, Rect.mem_set_unit]
  exact Iff.rfl

/-- The 50 blocks of 2000 rows cover the 100000 rows: row r is in block r / 2000. -/
theorem cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 50 := N_1
  refine ⟨⟨(i 0).val / 2000, by rw [hN]; omega⟩, flush1_3 _, ?_⟩
  rw [mem_blk1]
  obtain ⟨e0, e1, e2, e3, e4, e5, e6, e7⟩ := idx1 ⟨(i 0).val / 2000, by rw [hN]; omega⟩
  intro a
  match a with
  | ⟨0, _⟩ => show win1_3.index _ (0 : Fin 2) * 2000 ≤ (i 0).val ∧ (i 0).val < win1_3.index _ (0 : Fin 2) * 2000 + 2000; rw [e6]; show (i 0).val / 2000 * 2000 ≤ (i 0).val ∧ (i 0).val < (i 0).val / 2000 * 2000 + 2000; omega
  | ⟨1, _⟩ => show win1_3.index _ (1 : Fin 2) * 128 ≤ (i 1).val ∧ (i 1).val < win1_3.index _ (1 : Fin 2) * 128 + 128; rw [e7]; omega

/-- So launch 1's output array ends holding the layer's value on the arrays it was entered with. -/
theorem final1 (c : Dev nD) : (dat1 V c).arrAt 3 cfg1.N = dense (V c main_v111) (V c main_v112) (V c main_v113) :=
  (dat1 V c).arrAt_eq_of_cover 3 _ (fun t _ => flushed1_eq V c t) (cover1)

end Cert.KernelIdeal.Layer

end
-- ==== Proof.RefBridge.lean ====
/-
  The reference's two dense layers, read entry by entry: its product of the concatenated activations with the transposed
  weights is the sum over the 512 columns, its bias is spread over the rows, and its cut-off at zero is the maximum with
  the zero word — so each layer's result is the function `dense` (`denseRelu` for the first) of the layer's operands.
-/
import proofs.«113024_j10694468567648_1_alg».proof.Proof.RefStages
import proofs.«113024_j10694468567648_1_alg».proof.Proof.Dense

noncomputable section

namespace Cert.ReferenceIdeal.Bridge

open Cert.ReferenceIdeal Cert.ReferenceIdeal.ReadP Idealize.ShloMosaic Idealize.ShloMosaic.ValueIdx
open Cert.Dense (dense denseRelu SB)

/-- The second layer: the sum over the columns plus the bias, whatever row array `B` carries the bias entries. -/
theorem second_eq (x0 : (⟨S100000x128, .f32⟩ : BufTy).Contents (Elt Ideal)) (x1 : (⟨S2x1600000, .i32⟩ : BufTy).Contents (Elt Ideal))
    (x2 : (⟨S128x512, .f32⟩ : BufTy).Contents (Elt Ideal)) (x3 : (⟨S128, .f32⟩ : BufTy).Contents (Elt Ideal))
    (x4 : (⟨S128x512, .f32⟩ : BufTy).Contents (Elt Ideal)) (x5 : (⟨S128, .f32⟩ : BufTy).Contents (Elt Ideal))
    (B : SB.Idx → EReal) (hB : ∀ j : S1x128.Idx, B j = x5 (idx_main_v121 j)) :
    val_main_v123 (F := Ideal) x0 x1 x2 x3 x4 x5 = dense (val_main_v118 (F := Ideal) x0 x1 x2 x3) (val_main_v119 (F := Ideal) x4) B := by
  funext i
  rw [val_main_v123_apply, val_main_v120_apply, val_main_v122_apply, val_main_v121_apply]
  unfold dense
  show _ + _ = _ + _
  rw [hB]
  refine congrArg₂ (· + ·) (Finset.sum_congr rfl fun k _ => congrArg₂ (· * ·) (congrArg _ ?_) (congrArg _ ?_)) (congrArg _ (congrArg _ ?_))
  · funext a; match a with | ⟨0, _⟩ => rfl | ⟨1, _⟩ => rfl
  · funext a; match a with | ⟨0, _⟩ => rfl | ⟨1, _⟩ => rfl
  · funext a; match a with | ⟨0, _⟩ => rfl | ⟨1, _⟩ => rfl

/-- The first layer: the same, cut off below at zero. -/
theorem first_eq (x0 : (⟨S100000x128, .f32⟩ : BufTy).Contents (Elt Ideal)) (x1 : (⟨S2x1600000, .i32⟩ : BufTy).Contents (Elt Ideal))
    (x2 : (⟨S128x512, .f32⟩ : BufTy).Contents (Elt Ideal)) (x3 : (⟨S128, .f32⟩ : BufTy).Contents (Elt Ideal))
    (B : SB.Idx → EReal) (hB : ∀ j : S1x128.Idx, B j = x3 (idx_main_v75 j)) :
    val_main_v78 (F := Ideal) x0 x1 x2 x3 = denseRelu (val_main_v72 (F := Ideal) x0 x1) (val_main_v73 (F := Ideal) x2) B := by
  funext i
  rw [val_main_v78_apply, val_main_v77_apply, val_main_v74_apply, val_main_v76_apply, val_main_v75_apply, val_main_call1_v0_apply, val_main_call1_cst_apply]
  unfold denseRelu dense
  show max (_ + _) _ = max (_ + _) _
  rw [hB]
  refine congrArg₂ max (congrArg₂ (· + ·) (Finset.sum_congr rfl fun k _ => congrArg₂ (· * ·) (congrArg _ ?_) (congrArg _ ?_)) (congrArg _ (congrArg _ ?_))) rfl
  · funext a; match a with | ⟨0, _⟩ => rfl | ⟨1, _⟩ => rfl
  · funext a; match a with | ⟨0, _⟩ => rfl | ⟨1, _⟩ => rfl
  · funext a; match a with | ⟨0, _⟩ => rfl | ⟨1, _⟩ => rfl

end Cert.ReferenceIdeal.Bridge

end
-- ==== Proof.IdealChain1.lean ====
/-
  The kernel program's buffers, boundary by boundary, are the reference's stages of the same arguments: the two rows of
  the edge list, the edge weights d(row)·d(col), the activations x ‖ Ax ‖ A²x ‖ A³x built by three gather–scale–scatter
  hops, the transposed weights — the host operations are the reference's own, so each buffer's composed term is the
  reference's stage, operation for operation —; then the first launch's output is the reference's first layer (both are
  the dense layer cut off at zero of those operands), the second layer's activations likewise, the second launch's output
  the reference's second layer, and the closing reshape the reference's.
-/
import proofs.«113024_j10694468567648_1_alg».proof.Proof.IdealKept
import proofs.«113024_j10694468567648_1_alg».proof.Proof.IdealValue
import proofs.«113024_j10694468567648_1_alg».proof.Proof.RefStages
import proofs.«113024_j10694468567648_1_alg».proof.Proof.RefBridge

set_option maxRecDepth 16384

noncomputable section

namespace Cert.KernelIdeal.Layer

open Cert.KernelIdeal Cert.KernelIdeal.Gen
open Idealize.ShloMosaic Idealize.ShloMosaic.TcCoe Idealize.SL.Sem Idealize.ShloMosaic.ValueIdx Idealize.ShloMosaic.StableHlo
open Idealize.ShloMosaic.Pipeline (Dat)
open Cert.Dense (dense denseRelu)
open Cert.ReferenceIdeal.ReadP (val_main_v1 val_main_v3 val_main_v13 val_main_v16 val_main_v17 val_main_cst_3 val_main_v32 val_main_v72
  val_main_v73 val_main_v78 val_main_v118 val_main_v119 val_main_v123 val_main_v124 idx_main_v75 idx_main_v121)

variable (m : (ℓ : Loc nD τ sig) → Buf (Elt Ideal) ℓ) (ρ : Dev nD → PrngReg) (c : Dev nD)

/-- Reads a buffer after a stretch of host operations: each operation's result at its own buffer is its function of its
    operands' contents, any other buffer is as it was, and operand k of a concatenation is the k-th buffer listed. -/
local macro "host_results" : tactic => `(tactic| simp (disch := decide) only [after_cons, after_nil,
  nullary_result', unary_result', binary_result', ternary_result', quaternary_result', reshape_result', nary_result',
  unaryIndexed_result', binaryIndexed_result',
  nullary_result_ne', unary_result_ne', binary_result_ne', ternary_result_ne', quaternary_result_ne', reshape_result_ne',
  nary_result_ne', unaryIndexed_result_ne', binaryIndexed_result_ne',
  Matrix.cons_val])

/-! The outlined select's operands and result are moved between a tensor value's type and its buffer's type; at these
    literal buffers the two types are the same and the move is the identity. -/
theorem ofBuf_cst3 (h1 h2 h3) (v : main_cst_3.ty.Contents (Elt Ideal)) : (TRef.of main_cst_3 h1 h2 h3 : TRef sig ⟨S_, .f32⟩).ofBuf v = v := rfl
theorem toBuf_c0v0 (h1 h2 h3) (v : (⟨S_, .f32⟩ : BufTy).Contents (Elt Ideal)) : (TRef.of main_call0_v0 h1 h2 h3 : TRef sig ⟨S_, .f32⟩).toBuf v = v := rfl
theorem ofBuf_c0v0 (h1 h2 h3) (v : main_call0_v0.ty.Contents (Elt Ideal)) : (TRef.of main_call0_v0 h1 h2 h3 : TRef sig ⟨S_, .f32⟩).ofBuf v = v := rfl
theorem toBuf_c0v1 (h1 h2 h3) (v : (⟨S100000, .f32⟩ : BufTy).Contents (Elt Ideal)) : (TRef.of main_call0_v1 h1 h2 h3 : TRef sig ⟨S100000, .f32⟩).toBuf v = v := rfl
theorem ofBuf_c0v1 (h1 h2 h3) (v : main_call0_v1.ty.Contents (Elt Ideal)) : (TRef.of main_call0_v1 h1 h2 h3 : TRef sig ⟨S100000, .f32⟩).ofBuf v = v := rfl
theorem ofBuf_v9 (h1 h2 h3) (v : main_v9.ty.Contents (Elt Ideal)) : (TRef.of main_v9 h1 h2 h3 : TRef sig ⟨S100000, .i1⟩).ofBuf v = v := rfl
theorem ofBuf_v12 (h1 h2 h3) (v : main_v12.ty.Contents (Elt Ideal)) : (TRef.of main_v12 h1 h2 h3 : TRef sig ⟨S100000, .f32⟩).ofBuf v = v := rfl
theorem toBuf_v13 (h1 h2 h3) (v : (⟨S100000, .f32⟩ : BufTy).Contents (Elt Ideal)) : (TRef.of main_v13 h1 h2 h3 : TRef sig ⟨S100000, .f32⟩).toBuf v = v := rfl

/-- The outlined select with every move written out is the select. -/
theorem select_moves (h1 h2 h3 k1 k2 k3 l1 l2 l3 n1 n2 n3 o1 o2 o3 q1 q2 q3)
    (p : (⟨S100000, .i1⟩ : BufTy).Contents (Elt Ideal)) (a : (⟨S100000, .f32⟩ : BufTy).Contents (Elt Ideal)) (z : (⟨S_, .f32⟩ : BufTy).Contents (Elt Ideal)) :
    (TRef.of main_v13 l1 l2 l3 : TRef sig ⟨S100000, .f32⟩).toBuf (select ((TRef.of main_v9 h1 h2 h3 : TRef sig ⟨S100000, .i1⟩).ofBuf p) ((TRef.of main_v12 k1 k2 k3 : TRef sig ⟨S100000, .f32⟩).ofBuf a)
      ((TRef.of main_call0_v1 n1 n2 n3 : TRef sig ⟨S100000, .f32⟩).ofBuf ((TRef.of main_call0_v1 n1 n2 n3 : TRef sig ⟨S100000, .f32⟩).toBuf (broadcastInDim S100000 ![] bcast_S_S100000
        ((TRef.of main_call0_v0 o1 o2 o3 : TRef sig ⟨S_, .f32⟩).ofBuf ((TRef.of main_call0_v0 o1 o2 o3 : TRef sig ⟨S_, .f32⟩).toBuf (id ((TRef.of main_cst_3 q1 q2 q3 : TRef sig ⟨S_, .f32⟩).ofBuf z))))))))
      = select p a (broadcastInDim S100000 ![] bcast_S_S100000 (id z)) := by
  simp only [ofBuf_cst3, toBuf_c0v0, ofBuf_c0v0, toBuf_c0v1, ofBuf_c0v1, ofBuf_v9, ofBuf_v12, toBuf_v13]

/-! ## After the first stretch: the rows, the degrees' inverse square roots -/

/-- The edge list's first row, -/
theorem wa_v1 : Wa m ρ c (Proc.devRef .tc main_v1) = val_main_v1 (F := Ideal) (m ((c : Thread nD τ).loc main_arg1)) := by
  show StableHlo.after hostOps0 (W0 m ρ c) _ = _
  host_results
  rfl
/-- its second row, -/
theorem wa_v3 : Wa m ρ c (Proc.devRef .tc main_v3) = val_main_v3 (F := Ideal) (m ((c : Thread nD τ).loc main_arg1)) := by
  show StableHlo.after hostOps0 (W0 m ρ c) _ = _
  host_results
  rfl
/-- which nodes have an incoming edge, -/
theorem wa_v9 : Wa m ρ c (Proc.devRef .tc main_v9) = val_main_v13 (F := Ideal) (m ((c : Thread nD τ).loc main_arg1)) := by
  show StableHlo.after hostOps0 (W0 m ρ c) _ = _
  host_results
  rfl
/-- the inverse square roots of the degrees (of 1 at a node without one), -/
theorem wa_v12 : Wa m ρ c (Proc.devRef .tc main_v12) = val_main_v16 (F := Ideal) (m ((c : Thread nD τ).loc main_arg1)) := by
  show StableHlo.after hostOps0 (W0 m ρ c) _ = _
  host_results
  rfl
/-- and the zero the isolated nodes get. -/
theorem wa_cst3 : Wa m ρ c (Proc.devRef .tc main_cst_3) = val_main_cst_3 (F := Ideal) := by
  show StableHlo.after hostOps0 (W0 m ρ c) _ = _
  host_results
  rfl
theorem wa_arg0 : Wa m ρ c (Proc.devRef .tc main_arg0) = (m ((c : Thread nD τ).loc main_arg0)) := by
  show StableHlo.after hostOps0 (W0 m ρ c) _ = _
  host_results
  try rfl
theorem wa_arg2 : Wa m ρ c (Proc.devRef .tc main_arg2) = (m ((c : Thread nD τ).loc main_arg2)) := by
  show StableHlo.after hostOps0 (W0 m ρ c) _ = _
  host_results
  try rfl
theorem wa_arg3 : Wa m ρ c (Proc.devRef .tc main_arg3) = (m ((c : Thread nD τ).loc main_arg3)) := by
  show StableHlo.after hostOps0 (W0 m ρ c) _ = _
  host_results
  try rfl

/-! ## After the outlined select -/

/-- The inverse square roots, zero at isolated nodes. -/
theorem wb_v13 : Wb m ρ c (Proc.devRef .tc main_v13) = val_main_v17 (F := Ideal) (m ((c : Thread nD τ).loc main_arg1)) := by
  have h0 := wa_v9 m ρ c
  have h1 := wa_v12 m ρ c
  have h2 := wa_cst3 m ρ c
  show StableHlo.after hostOps0_1 (Wa m ρ c) _ = _
  generalize Wa m ρ c = G at h0 h1 h2 ⊢
  host_results
  rw [h0, h1, h2]
  unfold val_main_v17 Cert.ReferenceIdeal.ReadP.val_main_call0_v1 Cert.ReferenceIdeal.ReadP.val_main_call0_v0
  generalize val_main_v13 (F := Ideal) (m ((c : Thread nD τ).loc main_arg1)) = p
  generalize val_main_v16 (F := Ideal) (m ((c : Thread nD τ).loc main_arg1)) = a
  generalize val_main_cst_3 (F := Ideal) = z
  exact select_moves _ _ _ _ _ _ _ _ _ _ _ _ _ _ _ _ _ _ p a z
theorem wb_v1 : Wb m ρ c (Proc.devRef .tc main_v1) = val_main_v1 (F := Ideal) (m ((c : Thread nD τ).loc main_arg1)) := by
  have h0 := wa_v1 m ρ c
  show StableHlo.after hostOps0_1 (Wa m ρ c) _ = _
  generalize Wa m ρ c = G at h0 ⊢
  host_results
  exact h0
theorem wb_v3 : Wb m ρ c (Proc.devRef .tc main_v3) = val_main_v3 (F := Ideal) (m ((c : Thread nD τ).loc main_arg1)) := by
  have h0 := wa_v3 m ρ c
  show StableHlo.after hostOps0_1 (Wa m ρ c) _ = _
  generalize Wa m ρ c = G at h0 ⊢
  host_results
  exact h0
theorem wb_arg0 : Wb m ρ c (Proc.devRef .tc main_arg0) = (m ((c : Thread nD τ).loc main_arg0)) := by
  have h0 := wa_arg0 m ρ c
  show StableHlo.after hostOps0_1 (Wa m ρ c) _ = _
  generalize Wa m ρ c = G at h0 ⊢
  host_results
  exact h0
theorem wb_arg2 : Wb m ρ c (Proc.devRef .tc main_arg2) = (m ((c : Thread nD τ).loc main_arg2)) := by
  have h0 := wa_arg2 m ρ c
  show StableHlo.after hostOps0_1 (Wa m ρ c) _ = _
  generalize Wa m ρ c = G at h0 ⊢
  host_results
  exact h0
theorem wb_arg3 : Wb m ρ c (Proc.devRef .tc main_arg3) = (m ((c : Thread nD τ).loc main_arg3)) := by
  have h0 := wa_arg3 m ρ c
  show StableHlo.after hostOps0_1 (Wa m ρ c) _ = _
  generalize Wa m ρ c = G at h0 ⊢
  host_results
  exact h0

/-! ## The first launch's entry -/

/-- The edge list's first row. -/
theorem row_eq : W1 m ρ c (Proc.devRef .tc main_v1) = val_main_v1 (F := Ideal) (m ((c : Thread nD τ).loc main_arg1)) := by
  have h0 := wb_v1 m ρ c
  show StableHlo.after hostOps0_2 (Wb m ρ c) _ = _
  generalize Wb m ρ c = G at h0 ⊢
  host_results
  exact h0
/-- The edge list's second row. -/
theorem col_eq : W1 m ρ c (Proc.devRef .tc main_v3) = val_main_v3 (F := Ideal) (m ((c : Thread nD τ).loc main_arg1)) := by
  have h0 := wb_v3 m ρ c
  show StableHlo.after hostOps0_2 (Wb m ρ c) _ = _
  generalize Wb m ρ c = G at h0 ⊢
  host_results
  exact h0
/-- The edge weights: the inverse square roots of the two endpoints' degrees, multiplied. -/
theorem norm_eq : W1 m ρ c (Proc.devRef .tc main_v28) = val_main_v32 (F := Ideal) (m ((c : Thread nD τ).loc main_arg1)) := by
  have h0 := wb_v13 m ρ c
  have h1 := wb_v1 m ρ c
  have h2 := wb_v3 m ρ c
  show StableHlo.after hostOps0_2 (Wb m ρ c) _ = _
  generalize Wb m ρ c = G at h0 h1 h2 ⊢
  host_results
  rw [h0, h1, h2]
  rfl
set_option maxHeartbeats 4000000 in
/-- The first layer's activations: the features beside their first three propagations, operand by operand. -/
theorem x_eq : W1 m ρ c (Proc.devRef .tc main_v68) = val_main_v72 (F := Ideal) (m ((c : Thread nD τ).loc main_arg0)) (m ((c : Thread nD τ).loc main_arg1)) := by
  have h0 := wb_v13 m ρ c
  have h1 := wb_v1 m ρ c
  have h2 := wb_v3 m ρ c
  have h3 := wb_arg0 m ρ c
  show StableHlo.after hostOps0_2 (Wb m ρ c) _ = _
  generalize Wb m ρ c = G at h0 h1 h2 h3 ⊢
  host_results
  unfold val_main_v72
  refine Cert.Dense.concat4_eq _ _ _ _ _ _ _ _ _ _ _ _ _ _ _ ?_ ?_ ?_ ?_
  · host_results
    exact h3
  · host_results
    rw [h0, h1, h2, h3]
    rfl
  · host_results
    rw [h0, h1, h2, h3]
    rfl
  · host_results
    rw [h0, h1, h2, h3]
    rfl

/-- The first layer's transposed weights. -/
theorem w1_eq : W1 m ρ c (Proc.devRef .tc main_v69) = val_main_v73 (F := Ideal) (m ((c : Thread nD τ).loc main_arg2)) := by
  have h0 := wb_arg2 m ρ c
  show StableHlo.after hostOps0_2 (Wb m ρ c) _ = _
  generalize Wb m ρ c = G at h0 ⊢
  host_results
  rw [h0]
  rfl
/-- The first layer's bias as a row: entry (0, q) is bias entry q. -/
theorem b1_eq (j : S1x128.Idx) : V1 m ρ c main_v70 j = (m ((c : Thread nD τ).loc main_arg3)) (idx_main_v75 j) := by
  have h0 := wb_arg3 m ρ c
  show StableHlo.after hostOps0_2 (Wb m ρ c) (Proc.devRef .tc main_v70) j = _
  generalize Wb m ρ c = G at h0 ⊢
  host_results
  rw [h0]
  exact shapeCast_apply _ _ j (idx_main_v75 j)
    (by rewrite [Shape.rowMajor_val_one, Shape.rowMajor_val_two]; have h0 : (j 0).val < 1 := (j 0).isLt; show (j 1).val = (j 0).val * 128 + (j 1).val; omega)

/-! ## The first launch's exit -/

/-- The first launch leaves the reference's first layer in its output array. -/
theorem h1_eq : W2 m ρ c (Proc.devRef .tc main_v71) = val_main_v78 (F := Ideal) (m ((c : Thread nD τ).loc main_arg0)) (m ((c : Thread nD τ).loc main_arg1)) (m ((c : Thread nD τ).loc main_arg2)) (m ((c : Thread nD τ).loc main_arg3)) := by
  refine (W2_arr m ρ c 3).trans ((final0 (V1 m ρ) c).trans ?_)
  rw [show V1 m ρ c main_v68 = _ from x_eq m ρ c, show V1 m ρ c main_v69 = _ from w1_eq m ρ c]
  exact (Cert.ReferenceIdeal.Bridge.first_eq _ _ _ _ _ (b1_eq m ρ c)).symm

/-- What the second layer's hops read besides it: the edge weights and the two rows, untouched by the launch. -/
theorem norm2_eq : W2 m ρ c (Proc.devRef .tc main_v28) = val_main_v32 (F := Ideal) (m ((c : Thread nD τ).loc main_arg1)) := (W2_of_ne m ρ c main_v28 (by decide)).trans (norm_eq m ρ c)
theorem row2_eq : W2 m ρ c (Proc.devRef .tc main_v1) = val_main_v1 (F := Ideal) (m ((c : Thread nD τ).loc main_arg1)) := (W2_of_ne m ρ c main_v1 (by decide)).trans (row_eq m ρ c)
theorem col2_eq : W2 m ρ c (Proc.devRef .tc main_v3) = val_main_v3 (F := Ideal) (m ((c : Thread nD τ).loc main_arg1)) := (W2_of_ne m ρ c main_v3 (by decide)).trans (col_eq m ρ c)
theorem arg4_eq : W2 m ρ c (Proc.devRef .tc main_arg4) = (m ((c : Thread nD τ).loc main_arg4)) := (W2_of_ne m ρ c main_arg4 (by decide)).trans ((W1_kept m ρ c main_arg4 (by simp)).trans rfl)
theorem arg5_eq : W2 m ρ c (Proc.devRef .tc main_arg5) = (m ((c : Thread nD τ).loc main_arg5)) := (W2_of_ne m ρ c main_arg5 (by decide)).trans ((W1_kept m ρ c main_arg5 (by simp)).trans rfl)

end Cert.KernelIdeal.Layer

end
-- ==== Proof.IdealChain2.lean ====
/-
  The second half of the chain: the second launch's entry — the first layer's output beside its three propagations, the
  second layer's transposed weights and bias —, its output, and the closing reshape, as the reference's stages.
-/
import proofs.«113024_j10694468567648_1_alg».proof.Proof.IdealChain1

set_option maxRecDepth 16384

noncomputable section

namespace Cert.KernelIdeal.Layer

open Cert.KernelIdeal Cert.KernelIdeal.Gen
open Idealize.ShloMosaic Idealize.ShloMosaic.TcCoe Idealize.SL.Sem Idealize.ShloMosaic.ValueIdx Idealize.ShloMosaic.StableHlo
open Idealize.ShloMosaic.Pipeline (Dat)
open Cert.Dense (dense denseRelu)
open Cert.ReferenceIdeal.ReadP (val_main_v1 val_main_v3 val_main_v13 val_main_v16 val_main_v17 val_main_cst_3 val_main_v32 val_main_v72
  val_main_v73 val_main_v78 val_main_v118 val_main_v119 val_main_v123 val_main_v124 idx_main_v75 idx_main_v121)

variable (m : (ℓ : Loc nD τ sig) → Buf (Elt Ideal) ℓ) (ρ : Dev nD → PrngReg) (c : Dev nD)

/-- Reads a buffer after a stretch of host operations: each operation's result at its own buffer is its function of its
    operands' contents, any other buffer is as it was, and operand k of a concatenation is the k-th buffer listed. -/
local macro "host_results" : tactic => `(tactic| simp (disch := decide) only [after_cons, after_nil,
  nullary_result', unary_result', binary_result', ternary_result', quaternary_result', reshape_result', nary_result',
  unaryIndexed_result', binaryIndexed_result',
  nullary_result_ne', unary_result_ne', binary_result_ne', ternary_result_ne', quaternary_result_ne', reshape_result_ne',
  nary_result_ne', unaryIndexed_result_ne', binaryIndexed_result_ne',
  Matrix.cons_val])

/-! ## The second launch's entry -/

set_option maxHeartbeats 4000000 in
/-- The second layer's activations: the first layer's output beside its first three propagations, operand by operand. -/
theorem x2_eq : V3 m ρ c main_v111 = val_main_v118 (F := Ideal) (m ((c : Thread nD τ).loc main_arg0)) (m ((c : Thread nD τ).loc main_arg1)) (m ((c : Thread nD τ).loc main_arg2)) (m ((c : Thread nD τ).loc main_arg3)) := by
  show StableHlo.after hostOps1 (W2 m ρ c) (Proc.devRef .tc main_v111) = _
  host_results
  unfold val_main_v118
  refine Cert.Dense.concat4_eq _ _ _ _ _ _ _ _ _ _ _ _ _ _ _ ?_ ?_ ?_ ?_
  · host_results
    exact h1_eq m ρ c
  · host_results
    rw [h1_eq, norm2_eq, row2_eq, col2_eq]
    rfl
  · host_results
    rw [h1_eq, norm2_eq, row2_eq, col2_eq]
    rfl
  · host_results
    rw [h1_eq, norm2_eq, row2_eq, col2_eq]
    rfl

/-- The second layer's transposed weights. -/
theorem w2_eq : V3 m ρ c main_v112 = val_main_v119 (F := Ideal) (m ((c : Thread nD τ).loc main_arg4)) := by
  show StableHlo.after hostOps1 (W2 m ρ c) (Proc.devRef .tc main_v112) = _
  host_results
  rw [arg4_eq]
  rfl

/-- The second layer's bias as a row. -/
theorem b2_eq (j : S1x128.Idx) : V3 m ρ c main_v113 j = (m ((c : Thread nD τ).loc main_arg5)) (idx_main_v121 j) := by
  show StableHlo.after hostOps1 (W2 m ρ c) (Proc.devRef .tc main_v113) j = _
  host_results
  rw [arg5_eq]
  exact shapeCast_apply _ _ j (idx_main_v121 j)
    (by rewrite [Shape.rowMajor_val_one, Shape.rowMajor_val_two]; have h0 : (j 0).val < 1 := (j 0).isLt; show (j 1).val = (j 0).val * 128 + (j 1).val; omega)

/-! ## The result -/

/-- The second launch leaves the reference's second layer in its output array. -/
theorem h2_eq : W4 m ρ c (Proc.devRef .tc main_v114) = val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W4_arr m ρ c 3).trans ((final1 (V3 m ρ) c).trans ?_)
  rw [show V3 m ρ c main_v111 = _ from x2_eq m ρ c, show V3 m ρ c main_v112 = _ from w2_eq m ρ c]
  exact (Cert.ReferenceIdeal.Bridge.second_eq _ _ _ _ _ _ _ (b2_eq m ρ c)).symm

/-- The program's result: the reference's last stage of the six arguments. -/
theorem result_eq : W5 m ρ c (Proc.devRef .tc main_v115) = val_main_v124 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have h0 := h2_eq m ρ c
  show StableHlo.after hostOps2 (W4 m ρ c) _ = _
  generalize W4 m ρ c = G at h0 ⊢
  host_results
  rw [h0]
  rfl

end Cert.KernelIdeal.Layer

end
-- ==== Proof.RefRun1.lean ====
/-
  The reference's run, stretch by stretch: the first three stretches. Its @main is one line of 156 host operations; cut at the two outlined calls
  (the select that zeroes isolated nodes, the cut-off at zero) and before the two concatenations it is seven stretches, and after each stretch the buffers a
  later stretch reads hold the stage functions of the arguments: the edge list's rows, the inverse square roots of the
  degrees, the edge weights, the first layer before and after its cut-off, and at the end the result. Within a stretch
  each operation's buffer holds its function of its operands' buffers, which is how the stages are defined, operation
  for operation.
-/
import proofs.«113024_j10694468567648_1_alg».proof.Proof.RefRunP
import proofs.«113024_j10694468567648_1_alg».proof.Proof.RefStages

set_option maxRecDepth 16384

noncomputable section

namespace Cert.ReferenceIdeal.Staged

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

/-- Running one line of operations after another is running the two in turn. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih _

/-- Reads a buffer after a stretch of host operations: each operation's result at its own buffer is its function of its
    operands' contents, any other buffer is as it was, and operand k of a concatenation is the k-th buffer listed. -/
local macro "host_results" : tactic => `(tactic| simp (disch := decide) only [after_cons, after_nil,
  nullary_result', unary_result', binary_result', ternary_result', quaternary_result', reshape_result', nary_result',
  unaryIndexed_result', binaryIndexed_result',
  nullary_result_ne', unary_result_ne', binary_result_ne', ternary_result_ne', quaternary_result_ne', reshape_result_ne',
  nary_result_ne', unaryIndexed_result_ne', binaryIndexed_result_ne',
  Matrix.cons_val])

/-! ## The outlined calls' moves

An outlined function's operands and result are moved between a tensor value's type and its buffer's type; at each of
these literal buffers the two types are the same and the move is the identity. -/
theorem toBuf_v17 (h1 h2 h3) (v : (⟨S100000, .f32⟩ : BufTy).Contents (Elt Ideal)) : (TRef.of main_v17 h1 h2 h3 : TRef sig ⟨S100000, .f32⟩).toBuf v = v := rfl
theorem ofBuf_v13 (h1 h2 h3) (v : main_v13.ty.Contents (Elt Ideal)) : (TRef.of main_v13 h1 h2 h3 : TRef sig ⟨S100000, .i1⟩).ofBuf v = v := rfl
theorem ofBuf_v16 (h1 h2 h3) (v : main_v16.ty.Contents (Elt Ideal)) : (TRef.of main_v16 h1 h2 h3 : TRef sig ⟨S100000, .f32⟩).ofBuf v = v := rfl
theorem toBuf_c0v1 (h1 h2 h3) (v : (⟨S100000, .f32⟩ : BufTy).Contents (Elt Ideal)) : (TRef.of main_call0_v1 h1 h2 h3 : TRef sig ⟨S100000, .f32⟩).toBuf v = v := rfl
theorem ofBuf_c0v1 (h1 h2 h3) (v : main_call0_v1.ty.Contents (Elt Ideal)) : (TRef.of main_call0_v1 h1 h2 h3 : TRef sig ⟨S100000, .f32⟩).ofBuf v = v := rfl
theorem toBuf_c0v0 (h1 h2 h3) (v : (⟨S_, .f32⟩ : BufTy).Contents (Elt Ideal)) : (TRef.of main_call0_v0 h1 h2 h3 : TRef sig ⟨S_, .f32⟩).toBuf v = v := rfl
theorem ofBuf_c0v0 (h1 h2 h3) (v : main_call0_v0.ty.Contents (Elt Ideal)) : (TRef.of main_call0_v0 h1 h2 h3 : TRef sig ⟨S_, .f32⟩).ofBuf v = v := rfl
theorem ofBuf_cst3 (h1 h2 h3) (v : main_cst_3.ty.Contents (Elt Ideal)) : (TRef.of main_cst_3 h1 h2 h3 : TRef sig ⟨S_, .f32⟩).ofBuf v = v := rfl
theorem toBuf_v78 (h1 h2 h3) (v : (⟨S100000x128, .f32⟩ : BufTy).Contents (Elt Ideal)) : (TRef.of main_v78 h1 h2 h3 : TRef sig ⟨S100000x128, .f32⟩).toBuf v = v := rfl
theorem ofBuf_v77 (h1 h2 h3) (v : main_v77.ty.Contents (Elt Ideal)) : (TRef.of main_v77 h1 h2 h3 : TRef sig ⟨S100000x128, .f32⟩).ofBuf v = v := rfl
theorem toBuf_c1v0 (h1 h2 h3) (v : (⟨S100000x128, .f32⟩ : BufTy).Contents (Elt Ideal)) : (TRef.of main_call1_v0 h1 h2 h3 : TRef sig ⟨S100000x128, .f32⟩).toBuf v = v := rfl
theorem ofBuf_c1v0 (h1 h2 h3) (v : main_call1_v0.ty.Contents (Elt Ideal)) : (TRef.of main_call1_v0 h1 h2 h3 : TRef sig ⟨S100000x128, .f32⟩).ofBuf v = v := rfl
theorem toBuf_c1cst (h1 h2 h3) (v : (⟨S_, .f32⟩ : BufTy).Contents (Elt Ideal)) : (TRef.of main_call1_cst h1 h2 h3 : TRef sig ⟨S_, .f32⟩).toBuf v = v := rfl
theorem ofBuf_c1cst (h1 h2 h3) (v : main_call1_cst.ty.Contents (Elt Ideal)) : (TRef.of main_call1_cst h1 h2 h3 : TRef sig ⟨S_, .f32⟩).ofBuf v = v := rfl

/-- The outlined select with every move written out is the select. -/
theorem select_moves (h1 h2 h3 k1 k2 k3 l1 l2 l3 n1 n2 n3 o1 o2 o3 q1 q2 q3)
    (p : (⟨S100000, .i1⟩ : BufTy).Contents (Elt Ideal)) (a : (⟨S100000, .f32⟩ : BufTy).Contents (Elt Ideal)) (z : (⟨S_, .f32⟩ : BufTy).Contents (Elt Ideal)) :
    (TRef.of main_v17 l1 l2 l3 : TRef sig ⟨S100000, .f32⟩).toBuf (select ((TRef.of main_v13 h1 h2 h3 : TRef sig ⟨S100000, .i1⟩).ofBuf p) ((TRef.of main_v16 k1 k2 k3 : TRef sig ⟨S100000, .f32⟩).ofBuf a)
      ((TRef.of main_call0_v1 n1 n2 n3 : TRef sig ⟨S100000, .f32⟩).ofBuf ((TRef.of main_call0_v1 n1 n2 n3 : TRef sig ⟨S100000, .f32⟩).toBuf (broadcastInDim S100000 ![] bcast_S_S100000
        ((TRef.of main_call0_v0 o1 o2 o3 : TRef sig ⟨S_, .f32⟩).ofBuf ((TRef.of main_call0_v0 o1 o2 o3 : TRef sig ⟨S_, .f32⟩).toBuf (id ((TRef.of main_cst_3 q1 q2 q3 : TRef sig ⟨S_, .f32⟩).ofBuf z))))))))
      = select p a (broadcastInDim S100000 ![] bcast_S_S100000 (id z)) := by
  simp only [toBuf_v17, ofBuf_v13, ofBuf_v16, toBuf_c0v1, ofBuf_c0v1, toBuf_c0v0, ofBuf_c0v0, ofBuf_cst3]

variable (m : (ℓ : Loc nD τ sig) → Buf (Elt Ideal) ℓ) (c : Dev nD)

/-- The buffers after each of the seven stretches. -/
def A1 : Valuation τ sig (Elt Ideal) := after opsA (launchContents m c)
def A2 : Valuation τ sig (Elt Ideal) := after opsB (A1 m c)
def A3 : Valuation τ sig (Elt Ideal) := after opsC (A2 m c)
def A4 : Valuation τ sig (Elt Ideal) := after opsD (A3 m c)
def A5 : Valuation τ sig (Elt Ideal) := after opsE (A4 m c)
def A6 : Valuation τ sig (Elt Ideal) := after opsF (A5 m c)
def A7 : Valuation τ sig (Elt Ideal) := after opsG (A6 m c)

theorem fold_eq : after ops (launchContents m c) = A7 m c := by
  rw [ops_cut]; simp only [after_append]; rfl

/-! ## After the first stretch -/
/-- The edge list's first row, as the hops read it, -/
theorem a1_v1 : A1 m c (Proc.devRef .tc main_v1) = val_main_v1 (F := Ideal) (m ((c.tc : Thread nD τ).loc main_arg1)) := by
  show after opsA (launchContents m c) _ = _
  host_results
  rfl
/-- its second row, -/
theorem a1_v3 : A1 m c (Proc.devRef .tc main_v3) = val_main_v3 (F := Ideal) (m ((c.tc : Thread nD τ).loc main_arg1)) := by
  show after opsA (launchContents m c) _ = _
  host_results
  rfl
/-- and the two rows again, as the edge weights read them. -/
theorem a1_v5 : A1 m c (Proc.devRef .tc main_v5) = val_main_v5 (F := Ideal) (m ((c.tc : Thread nD τ).loc main_arg1)) := by
  show after opsA (launchContents m c) _ = _
  host_results
  rfl
theorem a1_v7 : A1 m c (Proc.devRef .tc main_v7) = val_main_v7 (F := Ideal) (m ((c.tc : Thread nD τ).loc main_arg1)) := by
  show after opsA (launchContents m c) _ = _
  host_results
  rfl
/-- Which nodes have an incoming edge, -/
theorem a1_v13 : A1 m c (Proc.devRef .tc main_v13) = val_main_v13 (F := Ideal) (m ((c.tc : Thread nD τ).loc main_arg1)) := by
  show after opsA (launchContents m c) _ = _
  host_results
  rfl
/-- the inverse square roots of the degrees (of 1 at a node without one), -/
theorem a1_v16 : A1 m c (Proc.devRef .tc main_v16) = val_main_v16 (F := Ideal) (m ((c.tc : Thread nD τ).loc main_arg1)) := by
  show after opsA (launchContents m c) _ = _
  host_results
  rfl
/-- and the zero the isolated nodes get. -/
theorem a1_cst3 : A1 m c (Proc.devRef .tc main_cst_3) = val_main_cst_3 (F := Ideal) := by
  show after opsA (launchContents m c) _ = _
  host_results
  rfl
theorem a1_arg0 : A1 m c (Proc.devRef .tc main_arg0) = (m ((c.tc : Thread nD τ).loc main_arg0)) := by
  show after opsA (launchContents m c) _ = _
  host_results
  try rfl
theorem a1_arg2 : A1 m c (Proc.devRef .tc main_arg2) = (m ((c.tc : Thread nD τ).loc main_arg2)) := by
  show after opsA (launchContents m c) _ = _
  host_results
  try rfl
theorem a1_arg3 : A1 m c (Proc.devRef .tc main_arg3) = (m ((c.tc : Thread nD τ).loc main_arg3)) := by
  show after opsA (launchContents m c) _ = _
  host_results
  try rfl
theorem a1_arg4 : A1 m c (Proc.devRef .tc main_arg4) = (m ((c.tc : Thread nD τ).loc main_arg4)) := by
  show after opsA (launchContents m c) _ = _
  host_results
  try rfl
theorem a1_arg5 : A1 m c (Proc.devRef .tc main_arg5) = (m ((c.tc : Thread nD τ).loc main_arg5)) := by
  show after opsA (launchContents m c) _ = _
  host_results
  try rfl

/-! ## After the outlined select -/
/-- The inverse square roots, zero at isolated nodes: the select's operands are moved between a value's type and its buffer's, the identity at these buffers. -/
theorem a2_v17 : A2 m c (Proc.devRef .tc main_v17) = val_main_v17 (F := Ideal) (m ((c.tc : Thread nD τ).loc main_arg1)) := by
  show after opsB (A1 m c) _ = _
  host_results
  rw [a1_v13 m c, a1_v16 m c, a1_cst3 m c]
  unfold val_main_v17 val_main_call0_v1 val_main_call0_v0
  generalize val_main_v13 (F := Ideal) (m ((c.tc : Thread nD τ).loc main_arg1)) = p
  generalize val_main_v16 (F := Ideal) (m ((c.tc : Thread nD τ).loc main_arg1)) = a
  generalize val_main_cst_3 (F := Ideal) = z
  exact select_moves _ _ _ _ _ _ _ _ _ _ _ _ _ _ _ _ _ _ p a z
theorem a2_v1 : A2 m c (Proc.devRef .tc main_v1) = val_main_v1 (F := Ideal) (m ((c.tc : Thread nD τ).loc main_arg1)) := by
  show after opsB (A1 m c) _ = _
  host_results
  exact a1_v1 m c
theorem a2_v3 : A2 m c (Proc.devRef .tc main_v3) = val_main_v3 (F := Ideal) (m ((c.tc : Thread nD τ).loc main_arg1)) := by
  show after opsB (A1 m c) _ = _
  host_results
  exact a1_v3 m c
theorem a2_v5 : A2 m c (Proc.devRef .tc main_v5) = val_main_v5 (F := Ideal) (m ((c.tc : Thread nD τ).loc main_arg1)) := by
  show after opsB (A1 m c) _ = _
  host_results
  exact a1_v5 m c
theorem a2_v7 : A2 m c (Proc.devRef .tc main_v7) = val_main_v7 (F := Ideal) (m ((c.tc : Thread nD τ).loc main_arg1)) := by
  show after opsB (A1 m c) _ = _
  host_results
  exact a1_v7 m c
theorem a2_arg0 : A2 m c (Proc.devRef .tc main_arg0) = (m ((c.tc : Thread nD τ).loc main_arg0)) := by
  show after opsB (A1 m c) _ = _
  host_results
  exact a1_arg0 m c
theorem a2_arg2 : A2 m c (Proc.devRef .tc main_arg2) = (m ((c.tc : Thread nD τ).loc main_arg2)) := by
  show after opsB (A1 m c) _ = _
  host_results
  exact a1_arg2 m c
theorem a2_arg3 : A2 m c (Proc.devRef .tc main_arg3) = (m ((c.tc : Thread nD τ).loc main_arg3)) := by
  show after opsB (A1 m c) _ = _
  host_results
  exact a1_arg3 m c
theorem a2_arg4 : A2 m c (Proc.devRef .tc main_arg4) = (m ((c.tc : Thread nD τ).loc main_arg4)) := by
  show after opsB (A1 m c) _ = _
  host_results
  exact a1_arg4 m c
theorem a2_arg5 : A2 m c (Proc.devRef .tc main_arg5) = (m ((c.tc : Thread nD τ).loc main_arg5)) := by
  show after opsB (A1 m c) _ = _
  host_results
  exact a1_arg5 m c

/-! ## After the edge weights and the first layer's hops -/
/-- The edge weights. -/
theorem a3_v32 : A3 m c (Proc.devRef .tc main_v32) = val_main_v32 (F := Ideal) (m ((c.tc : Thread nD τ).loc main_arg1)) := by
  show after opsC (A2 m c) _ = _
  host_results
  rw [a2_v17 m c, a2_v5 m c, a2_v7 m c]
  rfl
/-- One hop, -/
theorem a3_v45 : A3 m c (Proc.devRef .tc main_v45) = val_main_v45 (F := Ideal) (m ((c.tc : Thread nD τ).loc main_arg0)) (m ((c.tc : Thread nD τ).loc main_arg1)) := by
  show after opsC (A2 m c) _ = _
  host_results
  rw [a2_v17 m c, a2_v1 m c, a2_v3 m c, a2_v5 m c, a2_v7 m c, a2_arg0 m c]
  rfl
/-- two, -/
theorem a3_v58 : A3 m c (Proc.devRef .tc main_v58) = val_main_v58 (F := Ideal) (m ((c.tc : Thread nD τ).loc main_arg0)) (m ((c.tc : Thread nD τ).loc main_arg1)) := by
  show after opsC (A2 m c) _ = _
  host_results
  rw [a2_v17 m c, a2_v1 m c, a2_v3 m c, a2_v5 m c, a2_v7 m c, a2_arg0 m c]
  rfl
/-- three. -/
theorem a3_v71 : A3 m c (Proc.devRef .tc main_v71) = val_main_v71 (F := Ideal) (m ((c.tc : Thread nD τ).loc main_arg0)) (m ((c.tc : Thread nD τ).loc main_arg1)) := by
  show after opsC (A2 m c) _ = _
  host_results
  rw [a2_v17 m c, a2_v1 m c, a2_v3 m c, a2_v5 m c, a2_v7 m c, a2_arg0 m c]
  rfl
theorem a3_v1 : A3 m c (Proc.devRef .tc main_v1) = val_main_v1 (F := Ideal) (m ((c.tc : Thread nD τ).loc main_arg1)) := by
  show after opsC (A2 m c) _ = _
  host_results
  exact a2_v1 m c
theorem a3_v3 : A3 m c (Proc.devRef .tc main_v3) = val_main_v3 (F := Ideal) (m ((c.tc : Thread nD τ).loc main_arg1)) := by
  show after opsC (A2 m c) _ = _
  host_results
  exact a2_v3 m c
theorem a3_arg0 : A3 m c (Proc.devRef .tc main_arg0) = (m ((c.tc : Thread nD τ).loc main_arg0)) := by
  show after opsC (A2 m c) _ = _
  host_results
  exact a2_arg0 m c
theorem a3_arg2 : A3 m c (Proc.devRef .tc main_arg2) = (m ((c.tc : Thread nD τ).loc main_arg2)) := by
  show after opsC (A2 m c) _ = _
  host_results
  exact a2_arg2 m c
theorem a3_arg3 : A3 m c (Proc.devRef .tc main_arg3) = (m ((c.tc : Thread nD τ).loc main_arg3)) := by
  show after opsC (A2 m c) _ = _
  host_results
  exact a2_arg3 m c
theorem a3_arg4 : A3 m c (Proc.devRef .tc main_arg4) = (m ((c.tc : Thread nD τ).loc main_arg4)) := by
  show after opsC (A2 m c) _ = _
  host_results
  exact a2_arg4 m c
theorem a3_arg5 : A3 m c (Proc.devRef .tc main_arg5) = (m ((c.tc : Thread nD τ).loc main_arg5)) := by
  show after opsC (A2 m c) _ = _
  host_results
  exact a2_arg5 m c

end Cert.ReferenceIdeal.Staged

end
-- ==== Proof.RefRun2.lean ====
/-
  The reference's run, stretch by stretch: the last four stretches — the first layer's product, bias and cut-off, the
  second layer's hops, its product and bias, the reshape — and the run itself, read off the fold of all 156 operations.
-/
import proofs.«113024_j10694468567648_1_alg».proof.Proof.RefRun1

set_option maxRecDepth 16384

noncomputable section

namespace Cert.ReferenceIdeal.Staged

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

/-- Reads a buffer after a stretch of host operations: each operation's result at its own buffer is its function of its
    operands' contents, any other buffer is as it was, and operand k of a concatenation is the k-th buffer listed. -/
local macro "host_results" : tactic => `(tactic| simp (disch := decide) only [after_cons, after_nil,
  nullary_result', unary_result', binary_result', ternary_result', quaternary_result', reshape_result', nary_result',
  unaryIndexed_result', binaryIndexed_result',
  nullary_result_ne', unary_result_ne', binary_result_ne', ternary_result_ne', quaternary_result_ne', reshape_result_ne',
  nary_result_ne', unaryIndexed_result_ne', binaryIndexed_result_ne',
  Matrix.cons_val])

/-- The outlined cut-off at zero with every move written out is the maximum with the spread constant. -/
theorem maximum_moves (h1 h2 h3 k1 k2 k3 l1 l2 l3 n1 n2 n3)
    (y : (⟨S100000x128, .f32⟩ : BufTy).Contents (Elt Ideal)) (k : (⟨S_, .f32⟩ : BufTy).Contents (Elt Ideal)) :
    ((TRef.of main_v78 l1 l2 l3 : TRef sig ⟨S100000x128, .f32⟩).toBuf (Val := Elt Ideal) (maximumf (F := Ideal) (φ := .f32) ((TRef.of main_v77 h1 h2 h3 : TRef sig ⟨S100000x128, .f32⟩).ofBuf y)
      ((TRef.of main_call1_v0 k1 k2 k3 : TRef sig ⟨S100000x128, .f32⟩).ofBuf ((TRef.of main_call1_v0 k1 k2 k3 : TRef sig ⟨S100000x128, .f32⟩).toBuf (broadcastInDim S100000x128 ![] bcast_S_S100000x128
        ((TRef.of main_call1_cst n1 n2 n3 : TRef sig ⟨S_, .f32⟩).ofBuf ((TRef.of main_call1_cst n1 n2 n3 : TRef sig ⟨S_, .f32⟩).toBuf k)))))) : (⟨S100000x128, .f32⟩ : BufTy).Contents (Elt Ideal))
      = maximumf (F := Ideal) (φ := .f32) y (broadcastInDim S100000x128 ![] bcast_S_S100000x128 k) := by
  simp only [toBuf_v78, ofBuf_v77, toBuf_c1v0, ofBuf_c1v0, toBuf_c1cst, ofBuf_c1cst]

variable (m : (ℓ : Loc nD τ sig) → Buf (Elt Ideal) ℓ) (c : Dev nD)

/-! ## After the first layer's product and bias -/
/-- The first layer before its cut-off. -/
theorem a4_v77 : A4 m c (Proc.devRef .tc main_v77) = val_main_v77 (F := Ideal) (m ((c.tc : Thread nD τ).loc main_arg0)) (m ((c.tc : Thread nD τ).loc main_arg1)) (m ((c.tc : Thread nD τ).loc main_arg2)) (m ((c.tc : Thread nD τ).loc main_arg3)) := by
  show after opsD (A3 m c) _ = _
  host_results
  rw [a3_arg0 m c, a3_v45 m c, a3_v58 m c, a3_v71 m c, a3_arg2 m c, a3_arg3 m c]
  rfl
theorem a4_v32 : A4 m c (Proc.devRef .tc main_v32) = val_main_v32 (F := Ideal) (m ((c.tc : Thread nD τ).loc main_arg1)) := by
  show after opsD (A3 m c) _ = _
  host_results
  exact a3_v32 m c
theorem a4_v1 : A4 m c (Proc.devRef .tc main_v1) = val_main_v1 (F := Ideal) (m ((c.tc : Thread nD τ).loc main_arg1)) := by
  show after opsD (A3 m c) _ = _
  host_results
  exact a3_v1 m c
theorem a4_v3 : A4 m c (Proc.devRef .tc main_v3) = val_main_v3 (F := Ideal) (m ((c.tc : Thread nD τ).loc main_arg1)) := by
  show after opsD (A3 m c) _ = _
  host_results
  exact a3_v3 m c
theorem a4_arg4 : A4 m c (Proc.devRef .tc main_arg4) = (m ((c.tc : Thread nD τ).loc main_arg4)) := by
  show after opsD (A3 m c) _ = _
  host_results
  exact a3_arg4 m c
theorem a4_arg5 : A4 m c (Proc.devRef .tc main_arg5) = (m ((c.tc : Thread nD τ).loc main_arg5)) := by
  show after opsD (A3 m c) _ = _
  host_results
  exact a3_arg5 m c

/-! ## After the outlined cut-off -/
/-- The first layer. -/
theorem a5_v78 : A5 m c (Proc.devRef .tc main_v78) = val_main_v78 (F := Ideal) (m ((c.tc : Thread nD τ).loc main_arg0)) (m ((c.tc : Thread nD τ).loc main_arg1)) (m ((c.tc : Thread nD τ).loc main_arg2)) (m ((c.tc : Thread nD τ).loc main_arg3)) := by
  show after opsE (A4 m c) _ = _
  host_results
  rw [a4_v77 m c]
  unfold val_main_v78 val_main_call1_v0 val_main_call1_cst
  generalize val_main_v77 (F := Ideal) (m ((c.tc : Thread nD τ).loc main_arg0)) (m ((c.tc : Thread nD τ).loc main_arg1)) (m ((c.tc : Thread nD τ).loc main_arg2)) (m ((c.tc : Thread nD τ).loc main_arg3)) = y
  exact maximum_moves _ _ _ _ _ _ _ _ _ _ _ _ y _
theorem a5_v32 : A5 m c (Proc.devRef .tc main_v32) = val_main_v32 (F := Ideal) (m ((c.tc : Thread nD τ).loc main_arg1)) := by
  show after opsE (A4 m c) _ = _
  host_results
  exact a4_v32 m c
theorem a5_v1 : A5 m c (Proc.devRef .tc main_v1) = val_main_v1 (F := Ideal) (m ((c.tc : Thread nD τ).loc main_arg1)) := by
  show after opsE (A4 m c) _ = _
  host_results
  exact a4_v1 m c
theorem a5_v3 : A5 m c (Proc.devRef .tc main_v3) = val_main_v3 (F := Ideal) (m ((c.tc : Thread nD τ).loc main_arg1)) := by
  show after opsE (A4 m c) _ = _
  host_results
  exact a4_v3 m c
theorem a5_arg4 : A5 m c (Proc.devRef .tc main_arg4) = (m ((c.tc : Thread nD τ).loc main_arg4)) := by
  show after opsE (A4 m c) _ = _
  host_results
  exact a4_arg4 m c
theorem a5_arg5 : A5 m c (Proc.devRef .tc main_arg5) = (m ((c.tc : Thread nD τ).loc main_arg5)) := by
  show after opsE (A4 m c) _ = _
  host_results
  exact a4_arg5 m c

/-! ## After the second layer's hops -/
/-- One hop, -/
theorem a6_v91 : A6 m c (Proc.devRef .tc main_v91) = val_main_v91 (F := Ideal) (m ((c.tc : Thread nD τ).loc main_arg0)) (m ((c.tc : Thread nD τ).loc main_arg1)) (m ((c.tc : Thread nD τ).loc main_arg2)) (m ((c.tc : Thread nD τ).loc main_arg3)) := by
  show after opsF (A5 m c) _ = _
  host_results
  rw [a5_v78 m c, a5_v32 m c, a5_v1 m c, a5_v3 m c]
  rfl
/-- two, -/
theorem a6_v104 : A6 m c (Proc.devRef .tc main_v104) = val_main_v104 (F := Ideal) (m ((c.tc : Thread nD τ).loc main_arg0)) (m ((c.tc : Thread nD τ).loc main_arg1)) (m ((c.tc : Thread nD τ).loc main_arg2)) (m ((c.tc : Thread nD τ).loc main_arg3)) := by
  show after opsF (A5 m c) _ = _
  host_results
  rw [a5_v78 m c, a5_v32 m c, a5_v1 m c, a5_v3 m c]
  rfl
/-- three. -/
theorem a6_v117 : A6 m c (Proc.devRef .tc main_v117) = val_main_v117 (F := Ideal) (m ((c.tc : Thread nD τ).loc main_arg0)) (m ((c.tc : Thread nD τ).loc main_arg1)) (m ((c.tc : Thread nD τ).loc main_arg2)) (m ((c.tc : Thread nD τ).loc main_arg3)) := by
  show after opsF (A5 m c) _ = _
  host_results
  rw [a5_v78 m c, a5_v32 m c, a5_v1 m c, a5_v3 m c]
  rfl
theorem a6_v78 : A6 m c (Proc.devRef .tc main_v78) = val_main_v78 (F := Ideal) (m ((c.tc : Thread nD τ).loc main_arg0)) (m ((c.tc : Thread nD τ).loc main_arg1)) (m ((c.tc : Thread nD τ).loc main_arg2)) (m ((c.tc : Thread nD τ).loc main_arg3)) := by
  show after opsF (A5 m c) _ = _
  host_results
  exact a5_v78 m c
theorem a6_arg4 : A6 m c (Proc.devRef .tc main_arg4) = (m ((c.tc : Thread nD τ).loc main_arg4)) := by
  show after opsF (A5 m c) _ = _
  host_results
  exact a5_arg4 m c
theorem a6_arg5 : A6 m c (Proc.devRef .tc main_arg5) = (m ((c.tc : Thread nD τ).loc main_arg5)) := by
  show after opsF (A5 m c) _ = _
  host_results
  exact a5_arg5 m c

/-! ## At the end -/
/-- The result. -/
theorem a7_v124 : A7 m c (Proc.devRef .tc main_v124) = val_main_v124 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show after opsG (A6 m c) _ = _
  host_results
  rw [a6_v78 m c, a6_v91 m c, a6_v104 m c, a6_v117 m c, a6_arg4 m c, a6_arg5 m c]
  rfl

set_option maxHeartbeats 8000000 in
/-- No operation writes an argument. -/
theorem arg_kept (b : Ref sig .tc)
    (hb : b = main_arg0 ∨ b = main_arg1 ∨ b = main_arg2 ∨ b = main_arg3 ∨ b = main_arg4 ∨ b = main_arg5) :
    after ops (launchContents m c) (Proc.devRef .tc b) = m ((c.tc : Thread nD τ).loc b) := by
  rcases hb with rfl | rfl | rfl | rfl | rfl | rfl <;>
  exact (after_of_forall_not_mem _ _ (List.forall_iff_forall_mem.mp (by
    simp only [ops, TRef.nullary, TRef.unary, TRef.binary, TRef.ternary, List.Forall, nullary_writes, unary_writes, binary_writes,
      ternary_writes, quaternary_writes, reshape_writes, binaryIndexed_writes, nary_writes, Finset.mem_singleton]
    repeat' apply And.intro
    all_goals exact devRef_ne_of_ne (by decide)))).trans rfl

/-- THE RUN: every weakly fair execution of the reference terminates with its result at the last stage of the
    arguments' launch contents, the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v124) = val_main_v124 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v124).trans ((congrFun (fold_eq m c) _).trans (a7_v124 m c)),
      (h c main_arg0).trans (arg_kept m c _ (by simp)),
      (h c main_arg1).trans (arg_kept m c _ (by simp)),
      (h c main_arg2).trans (arg_kept m c _ (by simp)),
      (h c main_arg3).trans (arg_kept m c _ (by simp)),
      (h c main_arg4).trans (arg_kept m c _ (by simp)),
      (h c main_arg5).trans (arg_kept m c _ (by simp))⟩)
    (run_seq scopedRefs_eq scopedSems_eq defs main (fun _ => ops) main_eq (fun _ => ops_sub) m ρ)

end Cert.ReferenceIdeal.Staged

end
-- ==== Proof.lean ====
/-
  The certificate's five claims. Both programs compute a two-layer graph convolution: edge weights d(row)·d(col) from the
  in-degrees, activations x ‖ Ax ‖ A²x ‖ A³x by three gather–scale–scatter-add hops over the edge list, a dense layer
  (cut off at zero after the first), the same again on its output, and a reshape. The kernel program runs the two dense
  layers as launches over 50 blocks of 2000 rows each, everything else on the host exactly as the reference does.
  Over the extended reals each launch leaves, row block by row block, the sum over the 512 columns of activations times
  transposed weights plus the bias — the reference's product and sum entry by entry; no rearrangement of a sum and no
  distributive law is used, so the precondition is never opened. The frames: each launch's body loads three whole
  staging buffers and stores one, so the program runs to the end, faults nowhere, and no operation writes an argument.
-/
import proofs.«113024_j10694468567648_1_alg».proof.Defs
import proofs.«113024_j10694468567648_1_alg».proof.Proof.Gen.Kernel
import proofs.«113024_j10694468567648_1_alg».proof.Proof.Gen.KernelIdeal
import proofs.«113024_j10694468567648_1_alg».proof.Proof.Gen.ReferenceIdeal
import proofs.«113024_j10694468567648_1_alg».proof.Proof.Gen.Pre_finite_inputs
import proofs.«113024_j10694468567648_1_alg».proof.Proof.BitsKept
import proofs.«113024_j10694468567648_1_alg».proof.Proof.IdealChain2
import proofs.«113024_j10694468567648_1_alg».proof.Proof.RefRun2
import Idealize.ShloMosaic.Adequacy
import Idealize.ShloMosaic.Init

noncomputable section

namespace Cert.Proof

open Idealize.ShloMosaic Idealize.ShloMosaic.TcCoe Idealize.SL.Sem

/-- The word-level kernel program runs, and its arguments end unchanged. -/
theorem frame_kernel : Cert.frame_Kernel := fun m ρ _ => Cert.Kernel.Layer.frame (F := Bits) m ρ

/-- So does the idealized one. -/
theorem frame_kernelIdeal : Cert.frame_KernelIdeal := fun m ρ _ => Cert.KernelIdeal.Layer.frame (F := Ideal) m ρ

/-- The reference runs, and its arguments end unchanged: its run with the result dropped. -/
theorem frame_referenceIdeal : Cert.frame_ReferenceIdeal := fun m ρ _ =>
  (θ_run Cert.ReferenceIdeal.defs _ _).mono (fun _ h c => (h c).2) (Cert.ReferenceIdeal.Staged.run m ρ)

/-- The idealization rewrote nothing. -/
theorem preserves : Cert.preserves_Kernel_KernelIdeal := trivial

/-- From memories agreeing on the arguments both programs end with the reference's last stage of those arguments. -/
theorem algebraic : Cert.algebraic_KernelIdeal_ReferenceIdeal := by
  intro m ρ m' ρ' _ hagree
  refine ⟨fun c => Cert.ReferenceIdeal.ReadP.val_main_v124 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono (fun r h c =>
      ⟨(h c _ (Cert.KernelIdeal.Layer.mem_uc Cert.KernelIdeal.main_v115 (by decide))).trans (Cert.KernelIdeal.Layer.result_eq m ρ c),
       (h c _ (Cert.KernelIdeal.Layer.mem_uc Cert.KernelIdeal.main_arg0 (by decide))).trans (Cert.KernelIdeal.Layer.arg_kept m ρ c _ (by simp)),
       (h c _ (Cert.KernelIdeal.Layer.mem_uc Cert.KernelIdeal.main_arg1 (by decide))).trans (Cert.KernelIdeal.Layer.arg_kept m ρ c _ (by simp)),
       (h c _ (Cert.KernelIdeal.Layer.mem_uc Cert.KernelIdeal.main_arg2 (by decide))).trans (Cert.KernelIdeal.Layer.arg_kept m ρ c _ (by simp)),
       (h c _ (Cert.KernelIdeal.Layer.mem_uc Cert.KernelIdeal.main_arg3 (by decide))).trans (Cert.KernelIdeal.Layer.arg_kept m ρ c _ (by simp)),
       (h c _ (Cert.KernelIdeal.Layer.mem_uc Cert.KernelIdeal.main_arg4 (by decide))).trans (Cert.KernelIdeal.Layer.arg_kept m ρ c _ (by simp)),
       (h c _ (Cert.KernelIdeal.Layer.mem_uc Cert.KernelIdeal.main_arg5 (by decide))).trans (Cert.KernelIdeal.Layer.arg_kept m ρ c _ (by simp))⟩)
      (Cert.KernelIdeal.Layer.run_all (F := Ideal) m ρ)
  · refine (θ_run Cert.ReferenceIdeal.defs _ _).mono (fun _ h c => ⟨(h c).1.trans ?_, (h c).2⟩)
      (Cert.ReferenceIdeal.Staged.run m' ρ')
    obtain ⟨a0, a1, a2, a3, a4, a5⟩ := hagree c
    rw [a0, a1, a2, a3, a4, a5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
